-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)
  ∧ IdealRules.named_const.Statement Cert.KernelIdeal.κ "inv_temp" .f32 0x41A00000#32 ((268435456 / 13421773 : ℝ) : EReal)
  ∧ IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S8192 : Shape := ⟨1, ![8192]⟩
abbrev S512x256 : Shape := ⟨2, ![512, 256]⟩
abbrev S256x512 : Shape := ⟨2, ![256, 512]⟩
abbrev S1024x512 : Shape := ⟨2, ![1024, 512]⟩
abbrev S_ : Shape := ⟨0, ![]⟩

abbrev nBuf : Space → Nat
  | .hbm => 12
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S8192x256, .bf16⟩
  | .local _ .vmem, ⟨15, _⟩ => ⟨S8192x256, .bf16⟩
  | .local _ .vmem, ⟨16, _⟩ => ⟨S1024, .f32⟩
  | .local _ .vmem, ⟨17, _⟩ => ⟨S1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem3_0 : DmaSem sig := 16
abbrev cc3_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8], ![false]⟩

@[reducible] def k3_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k3_mult1 (k3_t1 : Fin k3_t1_loop.trips) : BitVec 32 :=
  let c0_i32 : BitVec 32 := 0#32
  let c1_i32 : BitVec 32 := 1#32
  let arg5 : BitVec 32 := Scf.iv c0_i32 c1_i32 k3_t1
  let c512_i32 : BitVec 32 := 512#32
  let v25 : BitVec 32 := Scalar.muli arg5 c512_i32
  v25
def k3_off1 (k3_t1 : Fin k3_t1_loop.trips) : Fin 2 → Nat :=
  let c0_i32 : BitVec 32 := 0#32
  let c1_i32 : BitVec 32 := 1#32
  let arg5 : BitVec 32 := Scf.iv c0_i32 c1_i32 k3_t1
  let c512_i32 : BitVec 32 := 512#32
  let v25 : BitVec 32 := Scalar.muli arg5 c512_i32
  let v26 : BitVec 32 := v25
  let v27 : Index := Scalar.indexCast v26
  let c0_11 : Index := 0#32
  ![v27.toNat, 0]
@[reducible] def k3_t2_loop : Scf.Loop 32 :=
  let c0_i32_3 : BitVec 32 := 0#32
  let c16_i32_4 : BitVec 32 := 16#32
  let v6 : BitVec 32 := Scalar.addi c0_i32_3 c16_i32_4
  let c1_i32_5 : BitVec 32 := 1#32
  ⟨c0_i32_3, v6, c1_i32_5⟩
def k3_mult2 (k3_t2 : Fin k3_t2_loop.trips) : BitVec 32 :=
  let c0_i32_3 : BitVec 32 := 0#32
  let c1_i32_5 : BitVec 32 := 1#32
  let arg5 : BitVec 32 := Scf.iv c0_i32_3 c1_i32_5 k3_t2
  let c512_i32 : BitVec 32 := 512#32
  let v25 : BitVec 32 := Scalar.muli arg5 c512_i32
  v25
def k3_off2 (k3_t2 : Fin k3_t2_loop.trips) : Fin 2 → Nat :=
  let c0_i32_3 : BitVec 32 := 0#32
  let c1_i32_5 : BitVec 32 := 1#32
  let arg5 : BitVec 32 := Scf.iv c0_i32_3 c1_i32_5 k3_t2
  let c512_i32 : BitVec 32 := 512#32
  let v25 : BitVec 32 := Scalar.muli arg5 c512_i32
  let v26 : BitVec 32 := v25
  let v27 : Index := Scalar.indexCast v26
  let c0_11 : Index := 0#32
  ![v27.toNat, 0]
def k3_mult3 (i : grid3.Coords) : BitVec 32 :=
  let arg0 : BitVec 32 := BitVec.ofNat 32 (i 0).val
  let c1024_i32 : BitVec 32 := 1024#32
  let v10 : BitVec 32 := Scalar.muli arg0 c1024_i32
  v10
def k3_off3 (i : grid3.Coords) : Fin 2 → Nat :=
  let arg0 : BitVec 32 := BitVec.ofNat 32 (i 0).val
  let c1024_i32 : BitVec 32 := 1024#32
  let v10 : BitVec 32 := Scalar.muli arg0 c1024_i32
  let v11 : BitVec 32 := v10
  let v12 : Index := Scalar.indexCast v11
  let c0_7 : Index := 0#32
  ![v12.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8192x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  h_S512x256 : 0 < S512x256.numel
  shapeCasts_S512x256_S512x256 : S512x256.ShapeCasts S512x256
  transposes_S512x256_p1_0_S256x512 : S512x256.Transposes [1, 0] S256x512
  reduces_S1024x512_S1024 : S1024x512.Reduces [1] S1024
  broadcasts_S1024x1_S1024x512 : S1024x1.Broadcasts S1024x512
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  h_S_ : 0 < S_.numel
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .bf16 = 32 ∨ (Rect.block (s := S8192x256) S1024x256.size (cc2_transform_1 i) (hinb2_1 i)).WholeWords (EltTy.packing .bf16)
  hrank3 : 0 < grid3.rank
  k3_t1_ok : k3_t1_loop.OK
  k3_mult1_dvd : ∀ k3_t1 : Fin k3_t1_loop.trips, 512 ∣ (k3_mult1 k3_t1).toNat
  k3_off1_inb : ∀ k3_t1 : Fin k3_t1_loop.trips, ∀ a, (k3_off1 k3_t1) a + S512x256.size a ≤ S8192x256.size a
  k3_t2_ok : k3_t2_loop.OK
  k3_mult2_dvd : ∀ k3_t2 : Fin k3_t2_loop.trips, 512 ∣ (k3_mult2 k3_t2).toNat
  k3_off2_inb : ∀ k3_t2 : Fin k3_t2_loop.trips, ∀ a, (k3_off2 k3_t2) a + S512x256.size a ≤ S8192x256.size a
  k3_mult3_dvd : ∀ i : grid3.Coords, 1024 ∣ (k3_mult3 i).toNat
  k3_off3_inb : ∀ i : grid3.Coords, ∀ a, (k3_off3 i) a + S1024x256.size a ≤ S8192x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .bf16 = 32 ∨ (Rect.block (s := S8192x256) S1024x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x256.size a ≤ S8192x256.size a
  hwx3_1 : ∀ i : grid3.Coords, EltTy.bits .bf16 = 32 ∨ (Rect.block (s := S8192x256) S8192x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192x256.size a ≤ S8192x256.size a
  hwx3_2 : ∀ i : grid3.Coords, EltTy.bits .bf16 = 32 ∨ (Rect.block (s := S8192x256) S8192x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024.size a ≤ S8192.size a
  hwx3_3 : ∀ i : grid3.Coords, EltTy.bits .f32 = 32 ∨ (Rect.block (s := S8192) S1024.size (cc3_transform_3 i) (hinb3_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v0) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S8192x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S8192x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S8192x16384 : Shape := ⟨2, ![8192, 16384]⟩
abbrev S8192x2 : Shape := ⟨2, ![8192, 2]⟩

abbrev nBuf : Space → Nat
  | .hbm => 81
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x16384, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x16384, .f32⟩
  | .hbm, ⟨49, _⟩ => ⟨S8192x16384, .f32⟩
  | .hbm, ⟨50, _⟩ => ⟨S8192x16384, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1, .f32⟩
  | .hbm, ⟨55, _⟩ => ⟨S8192x16384, .f32⟩
  | .hbm, ⟨56, _⟩ => ⟨S8192x16384, .f32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1, .i32⟩
  | .hbm, ⟨74, _⟩ => ⟨S8192x2, .i32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_call0_cst_0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_cst_1 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  concatenates_S8192x8192_S8192x8192_S8192x16384_d1 : Shape.Concatenates [S8192x8192, S8192x8192] S8192x16384 1
  reducesTo_S8192x16384_S8192_d1 : S8192x16384.ReducesTo [1] S8192
  bcast_S_S8192 : S_.BroadcastsInDim S8192 (![] : Fin 0 → Fin S8192.rank)
  bcast_S8192x1_S8192x16384_0_1 : S8192x1.BroadcastsInDim S8192x16384 (![0, 1] : Fin 2 → Fin S8192x16384.rank)
  concatenates_S8192x1_S8192x1_S8192x2_d1 : Shape.Concatenates [S8192x1, S8192x1] S8192x2 1
  reducesTo_S8192_S_d0 : S8192.ReducesTo [0] S_
  dot_S8192x256_S8192x256_S8192x8192_1_1_0_0_n_n_wf : DotDims.WF S8192x256 S8192x256 S8192x8192 [1] [1] [0] [0] [] []
  gather_S8192x16384_S8192x2_S8192_n_01_n_n_01_1_11_wf : GatherDims.WF S8192x16384 S8192x2 S8192 [] [0, 1] [] [0, 1] [] 1 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x16384_S8192x2_S8192_n_01_n_n_01_1_11 : GatherDims S8192x16384 S8192x2 S8192 where
  offsetDims := []
  collapsedSliceDims := [0, 1]
  operandBatchingDims := []
  startIndicesBatchingDims := []
  startIndexMap := [0, 1]
  indexVectorDim := 1
  sliceSizes := ![1, 1]
  wf := gather_S8192x16384_S8192x2_S8192_n_01_n_n_01_1_11_wf

class Facts : Prop extends Facts₀ where

variable [Facts]
-- ==== Proof.KernelRun.lean ====
/-
  What the whole program ends with.

  The program is four regions and then three host operations. The fourth region leaves 8192 row values in an array
  of its own; the host adds them up from zero, divides the sum by 8192 (the f32 word 0x46000000) and negates: the result
  is minus the mean of the row values. The three argument arrays are read and never written, so they end as launched.

  The run is the library's launch theorem over the program's segments — a region per pallas_call and the host stretch
  after the last one. Its final state has every unscoped buffer at the contents the last boundary names; the result
  buffer there is the three host operations applied to what the fourth region left in its output array, and each
  argument buffer walks back through the boundaries to the launch memory.
-/
import proofs.«156210_j18399639896499_1_alg».proof.Proof.Gen.KernelIdeal.Frame
import Idealize.ShloMosaic.Lib.StableHlo.Run

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- Minus the mean of 8192 row values: their sum from zero, divided by 8192, negated — the three host operations after
    the last region. -/
def lossOf (rows : (⟨S8192, .f32⟩ : BufTy).Contents (Elt F)) : (⟨S_, .f32⟩ : BufTy).Contents (Elt F) :=
  Host.negf (Host.divf (Host.reduceAdd rows (constant (F := F) S_ .f32 0x00000000#32) reducesTo_S8192_S_d0 h_S_)
    (constant (F := F) S_ .f32 0x46000000#32))

variable (m : (ℓ : Loc nD τ sig) → Buf (Elt F) ℓ) (ρ : Dev nD → PrngReg)

/-- The result buffer at the last boundary: the host stretch writes the zero, the sum, the divisor, the quotient and
    its negation in turn, each into a buffer of its own, so the result is minus the mean of what the fourth region left
    in its output array of row values. -/
theorem W5_result (c : Dev nD) :
    W5 (F := F) m ρ c (Proc.devRef .tc main_v6) = lossOf ((dat3 (V3 m ρ) c).arrAt 3 cfg3.N) := by
  show StableHlo.after hostOps4 (W4 m ρ c) (Proc.devRef .tc main_v6) = _
  after_results
  exact congrArg lossOf (W4_arr m ρ c 3)

set_option backward.isDefEq.respectTransparency.types false in
/-- From any memory with zero counters every weakly fair execution of the program on the TensorCores terminates, nothing
    faulting, and in every final state the result buffer holds minus the mean of the fourth region's row values and the
    three argument arrays are as launched. -/
theorem run : θ_run defs (onTc (τ := τ) (main (F := F))) ⟨m, fun _ => 0, ρ⟩ (fun r => ∀ c : Dev nD,
      r.2.mem ((c.tc : Thread nD τ).loc main_v6) = lossOf ((dat3 (V3 m ρ) c).arrAt 3 cfg3.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v6 (by decide))).trans (W5_result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Run

end
-- ==== Proof.Spec.lean ====
/-
  The mathematics both programs compute, stated once over plain index types.

  Three matrices of 8192 rows and 256 columns are normalised row by row: every entry is divided by
  max(‖row‖₂, ε), ε the f32 word of 1e-8.  With A, P, N the normalised matrices, row i of the loss is
      ⟨A_i, P_i⟩ / T − log Σ_j exp(z_ij),      z_i = (⟨A_i, P_j⟩ / T)_j ++ (⟨A_i, N_j⟩ / T)_j   (16384 logits),
  T the f32 word of 0.05, and the result is minus the mean of the 8192 rows.

  The reference subtracts the row maximum M_i first: (z_ii − M_i) − log Σ_j exp(z_ij − M_i)          (`rrow`).
  The kernel multiplies by the named reciprocal 1/T instead of dividing by T, and never holds a whole row of logits:
  it walks the 16384 columns in 32 blocks of 512 (16 of P, then 16 of N) carrying the running maximum m and the running
  sum l = Σ exp(z − m) over the columns seen so far, rescaling l by exp(m_old − m_new) at each block (`step`, `scan`),
  and ends with ⟨A_i, P_i⟩ · (1/T) − (m + log l)                                                        (`krow`).
-/
import Idealize.ShloMosaic.PureOps.Ideal
import Idealize.ShloMosaic.Lib.ValueIdx

noncomputable section

open scoped BigOperators

namespace Cert.Spec

open Idealize.ShloMosaic Idealize.ShloMosaic.ValueIdx

/-- An [8192, 256] matrix of extended reals. -/
abbrev Mat : Type := (⟨2, ![8192, 256]⟩ : Shape).Idx → EReal

/-- Every entry is a real number. -/
def IsReal {ι : Type} (x : ι → EReal) : Prop := ∀ j, ∃ r : ℝ, x j = (r : EReal)

/-- ε: the f32 word of 1e-8, the floor under a row's norm. -/
def eps : EReal := Ideal.ofBits .f32 0x322BCC77#32
/-- T: the f32 word of 0.05, the temperature the reference divides by. -/
def temp : EReal := Ideal.ofBits .f32 0x3D4CCCCD#32
/-- 1/T exactly: the value the kernel's folded scale is named. -/
def invTemp : EReal := ((268435456 / 13421773 : ℝ) : EReal)

/-- The sum of squares of row `r`. -/
def sumsq (x : Mat) (r : Fin 8192) : EReal := ∑ k : Fin 256, x (ix2 r k) * x (ix2 r k)

/-- Row normalisation: x(r, d) / max(√(Σ_k x(r, k)²), ε). -/
def nrm (x : Mat) : Mat := fun j => Ideal.div (x j) (max (Ideal.sqrt (sumsq x (j 0))) eps)

/-- ⟨a_i, b_j⟩. -/
def dot (a b : Mat) (i j : Fin 8192) : EReal := ∑ k : Fin 256, a (ix2 i k) * b (ix2 j k)

/-- Block `k` (of 16) of row `i`'s scaled similarities against `b`: columns 512·k … 512·k + 511. -/
def blk (a b : Mat) (i : Fin 8192) (k : Fin 16) (q : Fin 512) : EReal :=
  dot a b i ⟨512 * k.val + q.val, by omega⟩ * invTemp

/-- One block of the running (maximum, rescaled sum): m' = max(m, max_q v_q), l' = l · exp(m − m') + Σ_q exp(v_q − m'). -/
def step (v : Fin 512 → EReal) (ml : EReal × EReal) : EReal × EReal :=
  (max ml.1 (Finset.univ.fold max ⊥ v),
   ml.2 * Ideal.exp (ml.1 - max ml.1 (Finset.univ.fold max ⊥ v))
     + ∑ q : Fin 512, Ideal.exp (v q - max ml.1 (Finset.univ.fold max ⊥ v)))

/-- The running pair before block `n` of a walk over `b`'s 16 blocks from `init`. -/
def scan (a b : Mat) (i : Fin 8192) (init : EReal × EReal) : ℕ → EReal × EReal
  | 0 => init
  | n + 1 => if h : n < 16 then step (blk a b i ⟨n, h⟩) (scan a b i init n) else scan a b i init n

/-- The running pair after all of `p`'s and then all of `n`'s blocks, from (−∞, 0). -/
def online (a p n : Mat) (i : Fin 8192) : EReal × EReal := scan a n i (scan a p i (⊥, 0) 16) 16

/-- Row `i` as the kernel computes it. -/
def krow (a p n : Mat) (i : Fin 8192) : EReal :=
  dot a p i i * invTemp - ((online a p n i).1 + Ideal.log (online a p n i).2)

/-- Logit `j` of row `i` as the reference lays them out: the 8192 against `p`, then the 8192 against `n`, each divided by T. -/
def logit (a p n : Mat) (i : Fin 8192) (j : Fin 16384) : EReal :=
  if h : j.val < 8192 then Ideal.div (dot a p i ⟨j.val, h⟩) temp
  else Ideal.div (dot a n i ⟨j.val - 8192, by omega⟩) temp

/-- The row maximum of the logits. -/
def rowMax (a p n : Mat) (i : Fin 8192) : EReal := Finset.univ.fold max ⊥ (logit a p n i)

/-- Row `i` as the reference computes it: the shifted diagonal logit minus the log of the shifted exponentials' sum. -/
def rrow (a p n : Mat) (i : Fin 8192) : EReal :=
  (logit a p n i ⟨i.val, by omega⟩ - rowMax a p n i)
    - Ideal.log (∑ j : Fin 16384, Ideal.exp (logit a p n i j - rowMax a p n i))

end Cert.Spec

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.NormPay.lean ====
/-
  One block of the row normalisation, read entry by entry.

  A block is 1024 rows of 256 numbers.  The body squares every entry, adds the squares along each row (a sum over the
  256 columns), stands the 1024 row sums up as a column [1024, 1], takes the square root of each, raises each to at
  least ε (the maximum with a column filled with ε), spreads that column back over the 256 columns, and divides the
  block by it; the change of number format at the end does nothing to an extended real.  So entry (p, q) of the result is

        x(p, q) / max(√(Σ_k x(p, k)²), ε),

  the denominator the same along row p.  Three general readings carry the proof: a column [a, 1] spread to [a, b] holds
  at (p, c) what the column holds at (p, 0); a vector of length a recast as a column [a, 1] holds at (i, 0) what the
  vector holds at i; and a sum along the rows of a matrix is, at row p, the finite sum over k of the entries (p, k).
  Everything between them (square, square root, maximum, division, format change) acts entry by entry.
-/
import proofs.«156210_j18399639896499_1_alg».proof.Proof.Gen.KernelIdeal.Skeleton
import proofs.«156210_j18399639896499_1_alg».proof.Proof.Spec
import proofs.«156210_j18399639896499_1_alg».proof.Proof.LibColumn

noncomputable section

open scoped BigOperators

namespace Cert.KernelIdeal.NormValue

open Idealize.ShloMosaic Idealize.ShloMosaic.ValueIdx
open Cert.KernelIdeal

/-- Entry (p, q) of a normalised block: x(p, q) / max(√(Σ_k x(p, k)²), ε). The division and the format change are read
    through at the entry; the spread column is read at (p, 0); there the maximum, the square root and the column of ε are
    read through, the column is the row sums' vector at p, and that is the sum over row p of the squares. -/
theorem pay0_apply (x0 : Vec Ideal S1024x256 .f32) (p : Fin 1024) (q : Fin 256) :
    Gen.k0_pay1 (F := Ideal) x0 (ix2 p q)
      = Ideal.div (x0 (ix2 p q)) (max (Ideal.sqrt (∑ k : Fin 256, x0 (ix2 p k) * x0 (ix2 p k))) Cert.Spec.eps) := by
  unfold Gen.k0_pay1
  refine congrArg (Ideal.div (x0 (ix2 p q))) ?_
  refine (Cert.LibColumn.broadcastTo_a1_ab_apply _ _ p q).trans ?_
  refine congrArg (fun s => max (Ideal.sqrt s) Cert.Spec.eps) ?_
  refine (Cert.LibColumn.shapeCast_a_a1_apply _ _ p (0 : Fin 1)).trans ?_
  exact Cert.LibColumn.rowSum_apply (mulf x0 x0) _ _ _ p

/-- The second and third normalisations run the same body. -/
theorem pay1_apply (x0 : Vec Ideal S1024x256 .f32) (p : Fin 1024) (q : Fin 256) :
    Gen.k1_pay1 (F := Ideal) x0 (ix2 p q)
      = Ideal.div (x0 (ix2 p q)) (max (Ideal.sqrt (∑ k : Fin 256, x0 (ix2 p k) * x0 (ix2 p k))) Cert.Spec.eps) :=
  pay0_apply x0 p q

theorem pay2_apply (x0 : Vec Ideal S1024x256 .f32) (p : Fin 1024) (q : Fin 256) :
    Gen.k2_pay1 (F := Ideal) x0 (ix2 p q)
      = Ideal.div (x0 (ix2 p q)) (max (Ideal.sqrt (∑ k : Fin 256, x0 (ix2 p k) * x0 (ix2 p k))) Cert.Spec.eps) :=
  pay0_apply x0 p q

/-! ## A block's row against the array's row -/

/-- If row p of a block is row r of the matrix A (the 256 entries agree), then entry (p, q) of the normalised block is
    entry (r, q) of the normalised matrix: the numerator is the same entry, and the denominator depends on the row's
    256 entries only, all of which lie in the block. -/
theorem nrm_block (A : Cert.Spec.Mat) (x0 : Vec Ideal S1024x256 .f32) (r : Fin 8192) (p : Fin 1024) (q : Fin 256)
    (hx : ∀ k : Fin 256, x0 (ix2 p k) = A (ix2 r k)) :
    Gen.k0_pay1 (F := Ideal) x0 (ix2 p q) = Cert.Spec.nrm A (ix2 r q) := by
  rw [pay0_apply]
  show _ = Ideal.div (A (ix2 r q)) (max (Ideal.sqrt (∑ k : Fin 256, A (ix2 r k) * A (ix2 r k))) Cert.Spec.eps)
  rw [hx q, Finset.sum_congr rfl fun k _ => by rw [hx k]]

end Cert.KernelIdeal.NormValue

end
-- ==== Proof.NormValue.lean ====
/-
  The three row normalisations, from blocks to whole arrays, and what the fourth region finds.

  Each normalisation walks its [8192, 256] input in 8 blocks of 1024 rows. At point t it reads block t of the input —
  rows 1024 t … 1024 t + 1023, all 256 columns — and writes the normalised block back to the same rows of its output.
  A row's norm involves that row's 256 entries only, and a block holds whole rows, so the normalised block is the block
  of the normalised array: entry (p, q) of block t is x(1024 t + p, q) / max(‖row 1024 t + p‖₂, ε). Row r of the array
  lies in block r / 1024, so the 8 write-backs cover the array and it ends holding the normalised input.

  The program runs the three normalisations one after the other and then the fourth region. No region writes another's
  input or output, so walking the run back from the fourth region's entry, each of its first three input arrays is the
  output of one normalisation, and that normalisation's input is still the launch contents of an argument.
-/
import proofs.«156210_j18399639896499_1_alg».proof.Proof.NormPay
import proofs.«156210_j18399639896499_1_alg».proof.Proof.Gen.KernelIdeal.Frame
import Idealize.ShloMosaic.Lib.Pipeline.Value

noncomputable section

open scoped BigOperators

namespace Cert.KernelIdeal.NormValue

open Idealize.ShloMosaic Idealize.ShloMosaic.TcCoe Idealize.ShloMosaic.ValueIdx Idealize.SL.Sem
open Idealize.ShloMosaic.Pipeline (Dat)
open Cert.KernelIdeal

/-- The zero offsets of a whole-block load or store, however spelt. -/
theorem hz : (![0, 0] : Fin 2 → Nat) = fun _ => 0 := funext fun a => by fin_cases a <;> rfl

section Regions
-- the buffer contents a normalisation finds when it is entered: any
variable (V : (c : Dev nD) → (b : Ref sig .tc) → Buf (Elt Ideal) ((c : Thread nD τ).loc b))

/-! ## Normalisation 0: from its 8 blocks to the whole array -/

/-- The block positions, decided over the 8 points: the input's block and the output's block at point t are both block
    row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the normalised input array: entry (p, q) of the block the body leaves is the
    normalised entry of the block of the input at point t, whose row p is row 1024 t + p of the array, and the output's
    block puts it at (1024 t + p, q). -/
theorem flushed0_eq (c : Dev nD) (t : Fin cfg0.N) :
    (Gen.dat0 (F := Ideal) V c).flushed 1 t
      = ((cfg0.win 1).blk t).view.read (Elt Ideal) (Cert.Spec.nrm (V c (Pipeline.arrRef spec0 0))) := by
  show (cfg0.win 1).cut (grid0.coords t) ((Gen.dat0 (F := Ideal) V c).after 1 t) = _
  rw [Gen.after0_1]
  unfold Gen.out0_1
  rw [View.canon_unit_zero hz]
  simp only [View.ld_unit_zero (S := S1024x256) hz]
  obtain ⟨e0, e1, e2, e3⟩ := idx_facts0 t
  have hN : cfg0.N = 8 := Gen.N_0
  have ht : t.val < 8 := hN ▸ t.isLt
  funext j
  have hj0 : (j 0).val < 1024 := (j 0).isLt
  have hj1 : (j 1).val < 256 := (j 1).isLt
  -- the entry's coordinates inside the block, and its row in the array
  have hL : (cfg0.win 1).xinj (grid0.coords t) j = ix2 (⟨(j 0).val, hj0⟩ : Fin 1024) (⟨(j 1).val, hj1⟩ : Fin 256) :=
    funext fun a => by match a with | ⟨0, _⟩ => rfl | ⟨1, _⟩ => rfl
  have hR : ((cfg0.win 1).blk t).view.emb j
      = ix2 (⟨t.val * 1024 + (j 0).val, by omega⟩ : Fin 8192) (⟨(j 1).val, hj1⟩ : Fin 256) :=
    funext fun a => Fin.ext (by
      match a with
      | ⟨0, _⟩ => show win0_1.index t (0 : Fin 2) * 1024 + 1 * (j 0).val = t.val * 1024 + (j 0).val; omega
      | ⟨1, _⟩ => show win0_1.index t (1 : Fin 2) * 256 + 1 * (j 1).val = (j 1).val; omega)
  show Gen.k0_pay1 (F := Ideal) (Gen.iblk0 V c 0 t) ((cfg0.win 1).xinj (grid0.coords t) j)
    = Cert.Spec.nrm (V c (Pipeline.arrRef spec0 0)) (((cfg0.win 1).blk t).view.emb j)
  rw [hL, hR]
  refine nrm_block _ _ _ _ _ fun k => ?_
  -- row p of the input's block at point t is row 1024 t + p of the input array
  show V c (Pipeline.arrRef spec0 0) (((cfg0.win 0).blk t).view.emb (ix2 (⟨(j 0).val, hj0⟩ : Fin 1024) k)) = _
  refine congrArg (V c (Pipeline.arrRef spec0 0)) (funext fun a => Fin.ext ?_)
  match a with
  | ⟨0, _⟩ => show win0_0.index t (0 : Fin 2) * 1024 + 1 * (j 0).val = t.val * 1024 + (j 0).val; omega
  | ⟨1, _⟩ => show win0_0.index t (1 : Fin 2) * 256 + 1 * k.val = k.val; omega

/-- An index of the array lies in the output's block at point t iff each coordinate lies in the block's range. -/
theorem mem_blk0 (t : Fin cfg0.N) (i : S8192x256.Idx) :
    i ∈ ((cfg0.win 1).blk t).view.set
      ↔ ∀ a : Fin 2, win0_1.index t a * S1024x256.size a ≤ (i a).val
          ∧ (i a).val < win0_1.index t a * S1024x256.size a + S1024x256.size a := by
  show i ∈ ((View.whole main_v0).slice (win0_1.rect t)).set ↔ _
  rw [View.set_slice_whole, Rect.mem_set_unit]
  exact Iff.rfl

/-- Every entry of the array is written back by some point: row r lies in block r / 1024. -/
theorem cover0 (i : S8192x256.Idx) :
    ∃ t : Fin cfg0.N, (cfg0.win 1).flush t = true ∧ i ∈ ((cfg0.win 1).blk t).view.set := by
  have hN : cfg0.N = 8 := Gen.N_0
  have hi0 : (i 0).val < 8192 := (i 0).isLt
  have hi1 : (i 1).val < 256 := (i 1).isLt
  refine ⟨⟨(i 0).val / 1024, by rw [hN]; omega⟩, Gen.flush0_1 _, ?_⟩
  obtain ⟨-, -, e2, e3⟩ := idx_facts0 ⟨(i 0).val / 1024, by rw [hN]; omega⟩
  rw [mem_blk0]
  intro a
  match a with
  | ⟨0, _⟩ =>
    show win0_1.index _ (0 : Fin 2) * 1024 ≤ (i 0).val ∧ (i 0).val < win0_1.index _ (0 : Fin 2) * 1024 + 1024
    rw [e2]; show (i 0).val / 1024 * 1024 ≤ (i 0).val ∧ (i 0).val < (i 0).val / 1024 * 1024 + 1024; omega
  | ⟨1, _⟩ =>
    show win0_1.index _ (1 : Fin 2) * 256 ≤ (i 1).val ∧ (i 1).val < win0_1.index _ (1 : Fin 2) * 256 + 256
    rw [e3]; omega

/-- After normalisation 0 its output array holds the row-normalised contents its input array had at entry. -/
theorem arr0 (c : Dev nD) :
    (Gen.dat0 (F := Ideal) V c).arrAt 1 cfg0.N = Cert.Spec.nrm (V c (Pipeline.arrRef spec0 0)) :=
  (Gen.dat0 (F := Ideal) V c).arrAt_eq_of_cover 1 (Cert.Spec.nrm (V c (Pipeline.arrRef spec0 0)))
    (fun t _ => flushed0_eq V c t) cover0

/-! ## Normalisation 1: from its 8 blocks to the whole array -/

/-- The block positions, decided over the 8 points: the input's block and the output's block at point t are both block
    row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of the normalised input array: entry (p, q) of the block the body leaves is the
    normalised entry of the block of the input at point t, whose row p is row 1024 t + p of the array, and the output's
    block puts it at (1024 t + p, q). -/
theorem flushed1_eq (c : Dev nD) (t : Fin cfg1.N) :
    (Gen.dat1 (F := Ideal) V c).flushed 1 t
      = ((cfg1.win 1).blk t).view.read (Elt Ideal) (Cert.Spec.nrm (V c (Pipeline.arrRef spec1 0))) := by
  show (cfg1.win 1).cut (grid1.coords t) ((Gen.dat1 (F := Ideal) V c).after 1 t) = _
  rw [Gen.after1_1]
  unfold Gen.out1_1
  rw [View.canon_unit_zero hz]
  simp only [View.ld_unit_zero (S := S1024x256) hz]
  obtain ⟨e0, e1, e2, e3⟩ := idx_facts1 t
  have hN : cfg1.N = 8 := Gen.N_1
  have ht : t.val < 8 := hN ▸ t.isLt
  funext j
  have hj0 : (j 0).val < 1024 := (j 0).isLt
  have hj1 : (j 1).val < 256 := (j 1).isLt
  -- the entry's coordinates inside the block, and its row in the array
  have hL : (cfg1.win 1).xinj (grid1.coords t) j = ix2 (⟨(j 0).val, hj0⟩ : Fin 1024) (⟨(j 1).val, hj1⟩ : Fin 256) :=
    funext fun a => by match a with | ⟨0, _⟩ => rfl | ⟨1, _⟩ => rfl
  have hR : ((cfg1.win 1).blk t).view.emb j
      = ix2 (⟨t.val * 1024 + (j 0).val, by omega⟩ : Fin 8192) (⟨(j 1).val, hj1⟩ : Fin 256) :=
    funext fun a => Fin.ext (by
      match a with
      | ⟨0, _⟩ => show win1_1.index t (0 : Fin 2) * 1024 + 1 * (j 0).val = t.val * 1024 + (j 0).val; omega
      | ⟨1, _⟩ => show win1_1.index t (1 : Fin 2) * 256 + 1 * (j 1).val = (j 1).val; omega)
  show Gen.k1_pay1 (F := Ideal) (Gen.iblk1 V c 0 t) ((cfg1.win 1).xinj (grid1.coords t) j)
    = Cert.Spec.nrm (V c (Pipeline.arrRef spec1 0)) (((cfg1.win 1).blk t).view.emb j)
  rw [hL, hR]
  refine nrm_block _ _ _ _ _ fun k => ?_
  -- row p of the input's block at point t is row 1024 t + p of the input array
  show V c (Pipeline.arrRef spec1 0) (((cfg1.win 0).blk t).view.emb (ix2 (⟨(j 0).val, hj0⟩ : Fin 1024) k)) = _
  refine congrArg (V c (Pipeline.arrRef spec1 0)) (funext fun a => Fin.ext ?_)
  match a with
  | ⟨0, _⟩ => show win1_0.index t (0 : Fin 2) * 1024 + 1 * (j 0).val = t.val * 1024 + (j 0).val; omega
  | ⟨1, _⟩ => show win1_0.index t (1 : Fin 2) * 256 + 1 * k.val = k.val; omega

/-- An index of the array lies in the output's block at point t iff each coordinate lies in the block's range. -/
theorem mem_blk1 (t : Fin cfg1.N) (i : S8192x256.Idx) :
    i ∈ ((cfg1.win 1).blk t).view.set
      ↔ ∀ a : Fin 2, win1_1.index t a * S1024x256.size a ≤ (i a).val
          ∧ (i a).val < win1_1.index t a * S1024x256.size a + S1024x256.size a := by
  show i ∈ ((View.whole main_v1).slice (win1_1.rect t)).set ↔ _
  rw [View.set_slice_whole, Rect.mem_set_unit]
  exact Iff.rfl

/-- Every entry of the array is written back by some point: row r lies in block r / 1024. -/
theorem cover1 (i : S8192x256.Idx) :
    ∃ t : Fin cfg1.N, (cfg1.win 1).flush t = true ∧ i ∈ ((cfg1.win 1).blk t).view.set := by
  have hN : cfg1.N = 8 := Gen.N_1
  have hi0 : (i 0).val < 8192 := (i 0).isLt
  have hi1 : (i 1).val < 256 := (i 1).isLt
  refine ⟨⟨(i 0).val / 1024, by rw [hN]; omega⟩, Gen.flush1_1 _, ?_⟩
  obtain ⟨-, -, e2, e3⟩ := idx_facts1 ⟨(i 0).val / 1024, by rw [hN]; omega⟩
  rw [mem_blk1]
  intro a
  match a with
  | ⟨0, _⟩ =>
    show win1_1.index _ (0 : Fin 2) * 1024 ≤ (i 0).val ∧ (i 0).val < win1_1.index _ (0 : Fin 2) * 1024 + 1024
    rw [e2]; show (i 0).val / 1024 * 1024 ≤ (i 0).val ∧ (i 0).val < (i 0).val / 1024 * 1024 + 1024; omega
  | ⟨1, _⟩ =>
    show win1_1.index _ (1 : Fin 2) * 256 ≤ (i 1).val ∧ (i 1).val < win1_1.index _ (1 : Fin 2) * 256 + 256
    rw [e3]; omega

/-- After normalisation 1 its output array holds the row-normalised contents its input array had at entry. -/
theorem arr1 (c : Dev nD) :
    (Gen.dat1 (F := Ideal) V c).arrAt 1 cfg1.N = Cert.Spec.nrm (V c (Pipeline.arrRef spec1 0)) :=
  (Gen.dat1 (F := Ideal) V c).arrAt_eq_of_cover 1 (Cert.Spec.nrm (V c (Pipeline.arrRef spec1 0)))
    (fun t _ => flushed1_eq V c t) cover1

/-! ## Normalisation 2: from its 8 blocks to the whole array -/

/-- The block positions, decided over the 8 points: the input's block and the output's block at point t are both block
    row t, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point t writes back is block t of the normalised input array: entry (p, q) of the block the body leaves is the
    normalised entry of the block of the input at point t, whose row p is row 1024 t + p of the array, and the output's
    block puts it at (1024 t + p, q). -/
theorem flushed2_eq (c : Dev nD) (t : Fin cfg2.N) :
    (Gen.dat2 (F := Ideal) V c).flushed 1 t
      = ((cfg2.win 1).blk t).view.read (Elt Ideal) (Cert.Spec.nrm (V c (Pipeline.arrRef spec2 0))) := by
  show (cfg2.win 1).cut (grid2.coords t) ((Gen.dat2 (F := Ideal) V c).after 1 t) = _
  rw [Gen.after2_1]
  unfold Gen.out2_1
  rw [View.canon_unit_zero hz]
  simp only [View.ld_unit_zero (S := S1024x256) hz]
  obtain ⟨e0, e1, e2, e3⟩ := idx_facts2 t
  have hN : cfg2.N = 8 := Gen.N_2
  have ht : t.val < 8 := hN ▸ t.isLt
  funext j
  have hj0 : (j 0).val < 1024 := (j 0).isLt
  have hj1 : (j 1).val < 256 := (j 1).isLt
  -- the entry's coordinates inside the block, and its row in the array
  have hL : (cfg2.win 1).xinj (grid2.coords t) j = ix2 (⟨(j 0).val, hj0⟩ : Fin 1024) (⟨(j 1).val, hj1⟩ : Fin 256) :=
    funext fun a => by match a with | ⟨0, _⟩ => rfl | ⟨1, _⟩ => rfl
  have hR : ((cfg2.win 1).blk t).view.emb j
      = ix2 (⟨t.val * 1024 + (j 0).val, by omega⟩ : Fin 8192) (⟨(j 1).val, hj1⟩ : Fin 256) :=
    funext fun a => Fin.ext (by
      match a with
      | ⟨0, _⟩ => show win2_1.index t (0 : Fin 2) * 1024 + 1 * (j 0).val = t.val * 1024 + (j 0).val; omega
      | ⟨1, _⟩ => show win2_1.index t (1 : Fin 2) * 256 + 1 * (j 1).val = (j 1).val; omega)
  show Gen.k2_pay1 (F := Ideal) (Gen.iblk2 V c 0 t) ((cfg2.win 1).xinj (grid2.coords t) j)
    = Cert.Spec.nrm (V c (Pipeline.arrRef spec2 0)) (((cfg2.win 1).blk t).view.emb j)
  rw [hL, hR]
  refine nrm_block _ _ _ _ _ fun k => ?_
  -- row p of the input's block at point t is row 1024 t + p of the input array
  show V c (Pipeline.arrRef spec2 0) (((cfg2.win 0).blk t).view.emb (ix2 (⟨(j 0).val, hj0⟩ : Fin 1024) k)) = _
  refine congrArg (V c (Pipeline.arrRef spec2 0)) (funext fun a => Fin.ext ?_)
  match a with
  | ⟨0, _⟩ => show win2_0.index t (0 : Fin 2) * 1024 + 1 * (j 0).val = t.val * 1024 + (j 0).val; omega
  | ⟨1, _⟩ => show win2_0.index t (1 : Fin 2) * 256 + 1 * k.val = k.val; omega

/-- An index of the array lies in the output's block at point t iff each coordinate lies in the block's range. -/
theorem mem_blk2 (t : Fin cfg2.N) (i : S8192x256.Idx) :
    i ∈ ((cfg2.win 1).blk t).view.set
      ↔ ∀ a : Fin 2, win2_1.index t a * S1024x256.size a ≤ (i a).val
          ∧ (i a).val < win2_1.index t a * S1024x256.size a + S1024x256.size a := by
  show i ∈ ((View.whole main_v2).slice (win2_1.rect t)).set ↔ _
  rw [View.set_slice_whole, Rect.mem_set_unit]
  exact Iff.rfl

/-- Every entry of the array is written back by some point: row r lies in block r / 1024. -/
theorem cover2 (i : S8192x256.Idx) :
    ∃ t : Fin cfg2.N, (cfg2.win 1).flush t = true ∧ i ∈ ((cfg2.win 1).blk t).view.set := by
  have hN : cfg2.N = 8 := Gen.N_2
  have hi0 : (i 0).val < 8192 := (i 0).isLt
  have hi1 : (i 1).val < 256 := (i 1).isLt
  refine ⟨⟨(i 0).val / 1024, by rw [hN]; omega⟩, Gen.flush2_1 _, ?_⟩
  obtain ⟨-, -, e2, e3⟩ := idx_facts2 ⟨(i 0).val / 1024, by rw [hN]; omega⟩
  rw [mem_blk2]
  intro a
  match a with
  | ⟨0, _⟩ =>
    show win2_1.index _ (0 : Fin 2) * 1024 ≤ (i 0).val ∧ (i 0).val < win2_1.index _ (0 : Fin 2) * 1024 + 1024
    rw [e2]; show (i 0).val / 1024 * 1024 ≤ (i 0).val ∧ (i 0).val < (i 0).val / 1024 * 1024 + 1024; omega
  | ⟨1, _⟩ =>
    show win2_1.index _ (1 : Fin 2) * 256 ≤ (i 1).val ∧ (i 1).val < win2_1.index _ (1 : Fin 2) * 256 + 256
    rw [e3]; omega

/-- After normalisation 2 its output array holds the row-normalised contents its input array had at entry. -/
theorem arr2 (c : Dev nD) :
    (Gen.dat2 (F := Ideal) V c).arrAt 1 cfg2.N = Cert.Spec.nrm (V c (Pipeline.arrRef spec2 0)) :=
  (Gen.dat2 (F := Ideal) V c).arrAt_eq_of_cover 1 (Cert.Spec.nrm (V c (Pipeline.arrRef spec2 0)))
    (fun t _ => flushed2_eq V c t) cover2

end Regions

/-! ## What the fourth region finds in its first three input arrays -/

section Run
-- the launch memory and the cores' generator registers
variable (m : (ℓ : Loc nD τ sig) → Buf (Elt Ideal) ℓ) (ρ : Dev nD → PrngReg)

/-- The fourth region's first input array is the first normalisation's output, which the second and third normalisations
    leave alone; the first normalisation's input is the first argument as launched. -/
theorem entry3_0 (c : Dev nD) :
    Gen.V3 (F := Ideal) m ρ c (Pipeline.arrRef spec3 0) = Cert.Spec.nrm (m ((c : Thread nD τ).loc main_arg0)) :=
  calc Gen.W3 m ρ c (Proc.devRef .tc main_v0)
    _ = Gen.W2 m ρ c (Proc.devRef .tc main_v0) := Gen.W3_of_ne m ρ c main_v0 (by decide)
    _ = Gen.W1 m ρ c (Proc.devRef .tc main_v0) := Gen.W2_of_ne m ρ c main_v0 (by decide)
    _ = (Gen.dat0 (Gen.V0 m ρ) c).arrAt 1 cfg0.N := Gen.W1_arr m ρ c 1
    _ = Cert.Spec.nrm (Gen.V0 m ρ c (Pipeline.arrRef spec0 0)) := arr0 (Gen.V0 m ρ) c
    _ = Cert.Spec.nrm (m ((c : Thread nD τ).loc main_arg0)) := rfl

/-- Its second input array is the second normalisation's output, which the third leaves alone; the second
    normalisation's input, the second argument, is not touched by the first. -/
theorem entry3_1 (c : Dev nD) :
    Gen.V3 (F := Ideal) m ρ c (Pipeline.arrRef spec3 1) = Cert.Spec.nrm (m ((c : Thread nD τ).loc main_arg1)) :=
  calc Gen.W3 m ρ c (Proc.devRef .tc main_v1)
    _ = Gen.W2 m ρ c (Proc.devRef .tc main_v1) := Gen.W3_of_ne m ρ c main_v1 (by decide)
    _ = (Gen.dat1 (Gen.V1 m ρ) c).arrAt 1 cfg1.N := Gen.W2_arr m ρ c 1
    _ = Cert.Spec.nrm (Gen.V1 m ρ c (Pipeline.arrRef spec1 0)) := arr1 (Gen.V1 m ρ) c
    _ = Cert.Spec.nrm (m ((c : Thread nD τ).loc main_arg1)) :=
        congrArg Cert.Spec.nrm ((Gen.W1_of_ne m ρ c main_arg1 (by decide)).trans rfl)

/-- Its third input array is the third normalisation's output; the third normalisation's input, the third argument, is
    not touched by the first two. -/
theorem entry3_2 (c : Dev nD) :
    Gen.V3 (F := Ideal) m ρ c (Pipeline.arrRef spec3 2) = Cert.Spec.nrm (m ((c : Thread nD τ).loc main_arg2)) :=
  calc Gen.W3 m ρ c (Proc.devRef .tc main_v2)
    _ = (Gen.dat2 (Gen.V2 m ρ) c).arrAt 1 cfg2.N := Gen.W3_arr m ρ c 1
    _ = Cert.Spec.nrm (Gen.V2 m ρ c (Pipeline.arrRef spec2 0)) := arr2 (Gen.V2 m ρ) c
    _ = Cert.Spec.nrm (m ((c : Thread nD τ).loc main_arg2)) :=
        congrArg Cert.Spec.nrm (((Gen.W2_of_ne m ρ c main_arg2 (by decide)).trans
          (Gen.W1_of_ne m ρ c main_arg2 (by decide))).trans rfl)

end Run

end Cert.KernelIdeal.NormValue

end
-- ==== Proof.Reg3Run.lean ====
/-
  The fourth region's body as pure terms.  One grid point holds a tile of 1024 anchor rows `a`, the whole matrices of
  positives `p` and negatives `n` (8192 rows each), and writes 1024 row losses.  The body runs two counted loops of 16 trips:
  trip k of the first reads rows 512·k … 512·k + 511 of `p`, trip k of the second the same rows of `n`, and each trip maps the
  carried pair (running maximum, running rescaled sum) to the next one.  Here the values the run of the body finds are
  named: each trip's result is the pair of payloads (new maximum, new sum) of the carried pair and the block read, and the
  one store writes the closing payload of the pair after both loops and of the 1024 rows of `p` facing the tile.
-/
import proofs.«156210_j18399639896499_1_alg».proof.Proof.Gen.KernelIdeal.Frame
import Idealize.ShloMosaic.Lib.Pipeline.Value
import Idealize.ShloMosaic.Lib.ValueIdx

set_option maxRecDepth 16384

noncomputable section

namespace Cert.KernelIdeal.Reg3

open Idealize.ShloMosaic Idealize.ShloMosaic.TcCoe Idealize.ShloMosaic.Tactic Idealize.SL.Sem Cert.KernelIdeal Cert.KernelIdeal.Gen

variable {F : FTy → Type} [FloatOps F] [Named F]

/-- Rows 512·k … 512·k + 511 of a matrix of 8192 rows: the block trip `k` of the first loop reads. -/
abbrev blkP (k : Fin k3_t1_loop.trips) : Rect S8192x256 := Rect.unit (s := S8192x256) (k3_off1 k) S512x256.size (k3_off1_inb k)
/-- The same rows, for trip `k` of the second loop. -/
abbrev blkN (k : Fin k3_t2_loop.trips) : Rect S8192x256 := Rect.unit (s := S8192x256) (k3_off2 k) S512x256.size (k3_off2_inb k)
/-- Rows 1024·t … 1024·t + 1023: the rows of the positives facing the tile at grid point `i`. -/
abbrev diagP (i : grid3.Coords) : Rect S8192x256 := Rect.unit (s := S8192x256) (k3_off3 i) S1024x256.size (k3_off3_inb i)

/-- One trip of the first loop: the carried pair becomes (new maximum, new sum) of the pair and the block of `p`. -/
theorem trip1_eq (c : Dev nD) (i : grid3.Coords) (arg1 : Memref sig .tc .vmem S1024x256 .bf16) (harg1 : arg1.IsWhole) (arg2 : Memref sig .tc .vmem S8192x256 .bf16) (harg2 : arg2.IsWhole) (arg3 : Memref sig .tc .vmem S8192x256 .bf16) (harg3 : arg3.IsWhole) (arg4 : Memref sig .tc .vmem S1024 .f32) (harg4 : arg4.IsWhole)
    (v0 : Vec F S1024x256 .bf16) (x1 : Vec F S8192x256 .bf16) (k : Fin k3_t1_loop.trips) (acc : FVec F S1024x1 .f32 × FVec F S1024x1 .f32) :
    tripR_k3_t1 (F := F) Variants.none c none i arg1 harg1 arg2 harg2 arg3 harg3 arg4 harg4 v0 (harg2.unread x1) k acc
      = (k3_pay5 v0 acc.1 (View.ld x1 (blkP k)), k3_pay6 v0 acc.1 acc.2 (View.ld x1 (blkP k))) := by
  unfold tripR_k3_t1 trip_k3_t1
  dsimp only
  simp only [View.readAt_eq_ld, harg2.read_unread]

/-- One trip of the second loop, against the block of `n`. -/
theorem trip2_eq (c : Dev nD) (i : grid3.Coords) (arg1 : Memref sig .tc .vmem S1024x256 .bf16) (harg1 : arg1.IsWhole) (arg2 : Memref sig .tc .vmem S8192x256 .bf16) (harg2 : arg2.IsWhole) (arg3 : Memref sig .tc .vmem S8192x256 .bf16) (harg3 : arg3.IsWhole) (arg4 : Memref sig .tc .vmem S1024 .f32) (harg4 : arg4.IsWhole)
    (v0 : Vec F S1024x256 .bf16) (x2 : Vec F S8192x256 .bf16) (k : Fin k3_t2_loop.trips) (acc : FVec F S1024x1 .f32 × FVec F S1024x1 .f32) :
    tripR_k3_t2 (F := F) Variants.none c none i arg1 harg1 arg2 harg2 arg3 harg3 arg4 harg4 v0 (harg3.unread x2) k acc
      = (k3_pay8 v0 acc.1 (View.ld x2 (blkN k)), k3_pay9 v0 acc.1 acc.2 (View.ld x2 (blkN k))) := by
  unfold tripR_k3_t2 trip_k3_t2
  dsimp only
  simp only [View.readAt_eq_ld, harg3.read_unread]

/-- The carried pair before trip `n` of the first loop, from the pair (−∞, 0) the body starts with. -/
abbrev st1 (c : Dev nD) (i : grid3.Coords) (arg1 : Memref sig .tc .vmem S1024x256 .bf16) (harg1 : arg1.IsWhole) (arg2 : Memref sig .tc .vmem S8192x256 .bf16) (harg2 : arg2.IsWhole) (arg3 : Memref sig .tc .vmem S8192x256 .bf16) (harg3 : arg3.IsWhole) (arg4 : Memref sig .tc .vmem S1024 .f32) (harg4 : arg4.IsWhole)
    (x0 : Vec F S1024x256 .bf16) (x1 : Vec F S8192x256 .bf16) (n : ℕ) : FVec F S1024x1 .f32 × FVec F S1024x1 .f32 :=
  st_k3_t1 (F := F) Variants.none c none i arg1 harg1 arg2 harg2 arg3 harg3 arg4 harg4 x0 (harg2.unread x1) (k3_pay2, k3_pay3) n

/-- The carried pair before trip `n` of the second loop, from the pair the first loop ends with. -/
abbrev st2 (c : Dev nD) (i : grid3.Coords) (arg1 : Memref sig .tc .vmem S1024x256 .bf16) (harg1 : arg1.IsWhole) (arg2 : Memref sig .tc .vmem S8192x256 .bf16) (harg2 : arg2.IsWhole) (arg3 : Memref sig .tc .vmem S8192x256 .bf16) (harg3 : arg3.IsWhole) (arg4 : Memref sig .tc .vmem S1024 .f32) (harg4 : arg4.IsWhole)
    (x0 : Vec F S1024x256 .bf16) (x1 x2 : Vec F S8192x256 .bf16) (n : ℕ) : FVec F S1024x1 .f32 × FVec F S1024x1 .f32 :=
  st_k3_t2 (F := F) Variants.none c none i arg1 harg1 arg2 harg2 arg3 harg3 arg4 harg4 x0 (harg3.unread x2)
    ((st1 c i arg1 harg1 arg2 harg2 arg3 harg3 arg4 harg4 x0 x1 16).1, (st1 c i arg1 harg1 arg2 harg2 arg3 harg3 arg4 harg4 x0 x1 16).2) n

/-- What the body leaves in the output block: the closing payload of the tile, the pair after both loops, and the facing rows of `p`. -/
theorem out3_eq (c : Dev nD) (i : grid3.Coords) (arg1 : Memref sig .tc .vmem S1024x256 .bf16) (harg1 : arg1.IsWhole) (arg2 : Memref sig .tc .vmem S8192x256 .bf16) (harg2 : arg2.IsWhole) (arg3 : Memref sig .tc .vmem S8192x256 .bf16) (harg3 : arg3.IsWhole) (arg4 : Memref sig .tc .vmem S1024 .f32) (harg4 : arg4.IsWhole)
    (x0 : Vec F S1024x256 .bf16) (x1 : Vec F S8192x256 .bf16) (x2 : Vec F S8192x256 .bf16) :
    out3_A_3 (F := F) c i arg1 harg1 arg2 harg2 arg3 harg3 arg4 harg4 x0 x1 x2
      = k3_pay10 x0 (st2 c i arg1 harg1 arg2 harg2 arg3 harg3 arg4 harg4 x0 x1 x2 16).1
          (st2 c i arg1 harg1 arg2 harg2 arg3 harg3 arg4 harg4 x0 x1 x2 16).2 (View.ld x1 (diagP i)) := by
  have hz1 : (![0] : Fin S1024.rank → Nat) = fun _ => 0 := funext fun a => by match a with | ⟨0, _⟩ => rfl
  have hz2 : (![0, 0] : Fin S1024x256.rank → Nat) = fun _ => 0 := funext fun a => by match a with | ⟨0, _⟩ => rfl | ⟨1, _⟩ => rfl
  unfold out3_A_3
  rw [View.read_writes_eq_canon _ _ _ (cover3_A_3 c i arg1 harg1 arg2 harg2 arg3 harg3 arg4 harg4 x0 x1 x2)]
  unfold kernelRun3_A
  dsimp only
  rw [View.canon_unit_zero hz1]
  simp only [View.readAt_eq_ld, harg1.read_unread, harg2.read_unread, View.ld_unit_zero (S := S1024x256) hz2]
  rfl

end Cert.KernelIdeal.Reg3

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LibBlockRows.lean ====
/-
  Three readings of array operations at one entry, general in the extents, that the attention block needs beside
  the column and row-sum readings: a block with two leading unit axes read as a matrix, a matrix given two leading
  unit axes, and the maximum of a matrix's rows on the extended reals.

  A block [1, 1, a, b] holds one matrix. In row-major order the position of (0, 0, i, j) is
  ((0 · 1 + 0) · a + i) · b + j = i · b + j, the position of (i, j) in [a, b], so dropping or adding the two unit
  axes moves no entry. The maximum of a row is the fold of max over the row's entries, from the accumulator's value.
-/
import Idealize.ShloMosaic.PureOps.Ideal.Laws
import Idealize.ShloMosaic.Lib.ValueIdx
import Idealize.ShloMosaic.Lib.Pipeline.Value

noncomputable section

open scoped BigOperators

namespace Cert.LibBlockRows

open Idealize.ShloMosaic Idealize.ShloMosaic.ValueIdx

section Layout
variable {α : Type}

/-- A block [1, 1, a, b] cast to the matrix [a, b] reads, at (i, j), the block at (0, 0, i, j): both have the
    row-major position i · b + j. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to a block [1, 1, a, b] reads, at (u, u', i, j), the matrix at (i, j): the two unit
    coordinates are 0, and the row-major positions agree as above. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Layout

/-- A maximum reduction of a matrix [a, b] along its second axis is at n the fold of max, from the accumulator's
    value, over the entries (n, m), m < b. The library reads the reduction as the fold over the reduced axis of
    the source at the result index with the reduced coordinate put back in; for a matrix reduced along its columns
    that index is (n, m), coordinate by coordinate. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction (F := Ideal) .maximumf [1] ⟨1, ![a]⟩ src acc h hφ hacc (ix1 n)
      = (Finset.univ : Finset (Fin b)).fold max (Ideal.ofBits .f32 acc) (fun m => src (ix2 n m)) :=
  (Ideal.multiReduction_maximumf_single src acc h hφ hacc (ix1 n)).trans
    (congrArg (fun f : Fin b → EReal => (Finset.univ : Finset (Fin b)).fold max (Ideal.ofBits .f32 acc) f)
      (funext fun m => congrArg src (funext fun c => Fin.ext (by
        match c with
        | ⟨0, _⟩ => rfl
        | ⟨1, _⟩ => rfl))))

end Cert.LibBlockRows

end
-- ==== Proof.Reg3Pay.lean ====
/-
  The fourth region's payloads read at one entry, on the extended reals.

  For a tile `a` of 1024 normalised anchor rows and a block `b` of 512 rows of positives or negatives, entry (r, q) of the
  scaled similarity block is (Σ_d a(r, d) · b(q, d)) · (1/T): the product `a · bᵀ` into a zero accumulator times the named
  reciprocal of the temperature.  One trip of the running pair (m, l), row by row: the new maximum is max(m_r, max_q s(r, q))
  and the new sum l_r · exp(m_r − m'_r) + Σ_q exp(s(r, q) − m'_r).  The closing payload of row r is
  (Σ_d a(r, d) · p(r, d)) · (1/T) − (m_r + log l_r), `p` the rows of the positives facing the tile.
-/
import proofs.«156210_j18399639896499_1_alg».proof.Proof.Gen.KernelIdeal.Skeleton
import proofs.«156210_j18399639896499_1_alg».proof.Proof.Spec
import proofs.«156210_j18399639896499_1_alg».proof.Proof.LibPlainDot
import proofs.«156210_j18399639896499_1_alg».proof.Proof.LibColumn
import proofs.«156210_j18399639896499_1_alg».proof.Proof.LibBlockRows
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Reg3

open Idealize.ShloMosaic Idealize.ShloMosaic.ValueIdx Cert.KernelIdeal Cert.KernelIdeal.Gen

/-- The scale's name denotes 1/T, by the certificate's table. -/
theorem named_invTemp : Named.named (F := Ideal) κ "inv_temp" (φ := .f32) 0x41A00000#32 = Cert.Spec.invTemp :=
  IdealRules.named_const.ideal_named_scalar _ _ _ _ rfl

/-- A column [a, 1] cast to a vector [a] reads, at i, the column at (i, 0): both have row-major position i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Entry (r, q) of the scaled similarities of the tile against a block: ⟨a_r, b_q⟩ · (1/T). -/
theorem pay4_apply (a : Vec Ideal S1024x256 .bf16) (b : Vec Ideal S512x256 .bf16) (r : Fin 1024) (q : Fin 512) :
    k3_pay4 (F := Ideal) a b (ix2 r q) = (∑ d : Fin 256, a (ix2 r d) * b (ix2 q d)) * Cert.Spec.invTemp := by
  unfold k3_pay4 k3_pay1
  show FloatOps.matmul (F := Ideal) (DotDims.plain 1024 256 512) none _ _ (constant (F := Ideal) ⟨2, ![1024, 512]⟩ .f32 0x00000000#32) (ix2 r q)
      * Named.named (F := Ideal) κ "inv_temp" (φ := .f32) 0x41A00000#32 = _
  rw [named_invTemp]
  refine congrArg (· * Cert.Spec.invTemp) ?_
  refine (Cert.LibPlainDot.matmul_zero_apply (M := 1024) (K := 256) (N := 512) none _ _ r q).trans ?_
  refine Finset.sum_congr rfl fun d _ => ?_
  rw [shapeCast_self, shapeCast_self, transpose_ix2_apply]

/-- The new maximum of row r: max(m_r, max_q s(r, q)), the inner maximum a fold of max from the word of −∞. -/
theorem pay5_apply (a : Vec Ideal S1024x256 .bf16) (m : FVec Ideal S1024x1 .f32) (b : Vec Ideal S512x256 .bf16) (r : Fin 1024) :
    k3_pay5 (F := Ideal) a m b (ix2 r (0 : Fin 1))
      = max (m (ix2 r (0 : Fin 1)))
          ((Finset.univ : Finset (Fin 512)).fold max (Ideal.ofBits .f32 0xFF800000#32) (fun q => k3_pay4 (F := Ideal) a b (ix2 r q))) := by
  unfold k3_pay5
  show max (m (ix2 r (0 : Fin 1))) (shapeCast ⟨2, ![1024, 1]⟩ _ _ (ix2 r (0 : Fin 1))) = _
  refine congrArg (max (m (ix2 r (0 : Fin 1)))) ?_
  refine (Cert.LibColumn.shapeCast_a_a1_apply _ _ r 0).trans ?_
  exact Cert.LibBlockRows.rowMax_apply _ _ _ _ _ r

/-- The new sum of row r: l_r · exp(m_r − m'_r) + Σ_q exp(s(r, q) − m'_r). -/
theorem pay6_apply (a : Vec Ideal S1024x256 .bf16) (m l : FVec Ideal S1024x1 .f32) (b : Vec Ideal S512x256 .bf16) (r : Fin 1024) :
    k3_pay6 (F := Ideal) a m l b (ix2 r (0 : Fin 1))
      = l (ix2 r (0 : Fin 1)) * Ideal.exp (m (ix2 r (0 : Fin 1)) - k3_pay5 (F := Ideal) a m b (ix2 r (0 : Fin 1)))
        + ∑ q : Fin 512, Ideal.exp (k3_pay4 (F := Ideal) a b (ix2 r q) - k3_pay5 (F := Ideal) a m b (ix2 r (0 : Fin 1))) := by
  unfold k3_pay6
  show l (ix2 r (0 : Fin 1)) * Ideal.exp (m (ix2 r (0 : Fin 1)) - k3_pay5 (F := Ideal) a m b (ix2 r (0 : Fin 1)))
      + shapeCast ⟨2, ![1024, 1]⟩ _ _ (ix2 r (0 : Fin 1)) = _
  refine congrArg (fun s : EReal => l (ix2 r (0 : Fin 1)) * Ideal.exp (m (ix2 r (0 : Fin 1)) - k3_pay5 (F := Ideal) a m b (ix2 r (0 : Fin 1))) + s) ?_
  refine (Cert.LibColumn.shapeCast_a_a1_apply _ _ r 0).trans ?_
  refine (Cert.LibColumn.rowSum_apply _ _ _ _ r).trans ?_
  refine Finset.sum_congr rfl fun q _ => ?_
  show Ideal.exp (k3_pay4 (F := Ideal) a b (ix2 r q) - broadcastTo ⟨2, ![1024, 512]⟩ _ _ (ix2 r q)) = _
  rw [Cert.LibColumn.broadcastTo_a1_ab_apply]

/-- The second loop's payloads are the first loop's, term for term. -/
theorem pay7_eq : @k3_pay7 Ideal _ _ = @k3_pay4 Ideal _ _ := rfl
theorem pay8_eq : @k3_pay8 Ideal _ _ = @k3_pay5 Ideal _ _ := rfl
theorem pay9_eq : @k3_pay9 Ideal _ _ = @k3_pay6 Ideal _ _ := rfl

/-- The closing payload of row r: ⟨a_r, p_r⟩ · (1/T) − (m_r + log l_r). -/
theorem pay10_apply (a : Vec Ideal S1024x256 .bf16) (m l : FVec Ideal S1024x1 .f32) (pd : Vec Ideal S1024x256 .bf16) (r : Fin 1024) :
    k3_pay10 (F := Ideal) a m l pd (ix1 r)
      = (∑ d : Fin 256, a (ix2 r d) * pd (ix2 r d)) * Cert.Spec.invTemp
        - (m (ix2 r (0 : Fin 1)) + Ideal.log (l (ix2 r (0 : Fin 1)))) := by
  unfold k3_pay10 k3_pay1
  refine (shapeCast_a1_a_apply _ _ r).trans ?_
  show shapeCast ⟨2, ![1024, 1]⟩ _ _ (ix2 r (0 : Fin 1)) * Named.named (F := Ideal) κ "inv_temp" (φ := .f32) 0x41A00000#32
      - (m (ix2 r (0 : Fin 1)) + Ideal.log (l (ix2 r (0 : Fin 1)))) = _
  rw [named_invTemp]
  refine congrArg (fun s => s * Cert.Spec.invTemp - (m (ix2 r (0 : Fin 1)) + Ideal.log (l (ix2 r (0 : Fin 1))))) ?_
  refine (Cert.LibColumn.shapeCast_a_a1_apply _ _ r 0).trans ?_
  refine (Cert.LibColumn.rowSum_apply _ _ _ _ r).trans ?_
  refine Finset.sum_congr rfl fun d _ => ?_
  show shapeCast S1024x256 a _ (ix2 r d) * shapeCast S1024x256 pd _ (ix2 r d) = _
  rw [shapeCast_self, shapeCast_self]

end Cert.KernelIdeal.Reg3

end
-- ==== Proof.Consts.lean ====
/-
  The float words of the statement, read as the extended reals they denote.

  An f32 word with sign 0, exponent field E (neither 0 nor 255) and fraction F denotes (2^23 + F) · 2^(E − 150).
    T  = 0x3D4CCCCD : E = 122, F = 5033165, so T = 13421773 · 2^(−28) = 13421773 / 268435456  (the f32 nearest 0.05);
    ε  = 0x322BCC77 : E = 100, F = 2870391, so ε = 11258999 · 2^(−50), a positive real        (the f32 nearest 1e-8);
    0xFF800000      : sign 1, E = 255, F = 0, the word of −∞.
  Dividing by the nonzero real T is multiplying by its reciprocal 268435456 / 13421773, also at ±∞: this is where the
  reference's "/ T" meets the kernel's "· (1/T)".
-/
import Idealize.ShloMosaic.PureOps.Ideal
import proofs.«156210_j18399639896499_1_alg».proof.Proof.Spec

noncomputable section

namespace Cert.Spec

open Idealize.ShloMosaic

/-- T = 13421773 · 2^(−28). -/
theorem temp_eq : temp = ((13421773 / 268435456 : ℝ) : EReal) := by
  simp [temp, Ideal.ofBits, Ideal.ieee, -EReal.coe_mul]; norm_num

/-- ε = 11258999 · 2^(−50) is a positive real. -/
theorem eps_pos : ∃ r : ℝ, 0 < r ∧ eps = (r : EReal) := by
  refine ⟨11258999 / 1125899906842624, by norm_num, ?_⟩
  simp [eps, Ideal.ofBits, Ideal.ieee, -EReal.coe_mul]; norm_num

/-- The word with sign 1, all-ones exponent and zero fraction is −∞. -/
theorem ofBits_neg_inf : Ideal.ofBits .f32 0xFF800000#32 = ⊥ := by
  simp [Ideal.ofBits, Ideal.ieee]

/-- x / T = x · (1/T) for every extended real x: T is a nonzero real and 1 / (13421773/268435456) = 268435456/13421773. -/
theorem div_temp (x : EReal) : Ideal.div x temp = x * invTemp := by
  rw [temp_eq, Ideal.div_coe (by norm_num) x, invTemp]
  norm_num

end Cert.Spec

end
-- ==== Proof.Reg3Scan.lean ====
/-
  The two loops of the fourth region, row by row.

  Fix a row r of the tile and let g be the row of the whole anchor matrix A it holds (the tile's row r is A's row g).
  Read at row r, one trip of either loop is one block of the running (maximum, rescaled sum): the trip's 512 scaled
  similarities are ⟨A_g, B_{512k+q}⟩ · (1/T), q < 512, B the matrix the loop walks, because the block the trip loads is rows
  512·k … 512·k + 511 of B.  So the pair carried into trip n, read at row r, is the specification's `scan` after n blocks,
  by induction on n; after the first loop's 16 trips over the positives and the second's over the negatives it is
  `online`, and the stored value of row r is `krow`.
-/
import proofs.«156210_j18399639896499_1_alg».proof.Proof.Reg3Run
import proofs.«156210_j18399639896499_1_alg».proof.Proof.Reg3Pay
import proofs.«156210_j18399639896499_1_alg».proof.Proof.Consts

set_option maxRecDepth 16384

noncomputable section

open scoped BigOperators

namespace Cert.KernelIdeal.Reg3

open Idealize.ShloMosaic Idealize.ShloMosaic.TcCoe Idealize.ShloMosaic.ValueIdx Idealize.SL.Sem Cert.KernelIdeal Cert.KernelIdeal.Gen

/-- A carried pair of columns read at row `r`. -/
def rowOf (s : FVec Ideal S1024x1 .f32 × FVec Ideal S1024x1 .f32) (r : Fin 1024) : EReal × EReal :=
  (s.1 (ix2 r (0 : Fin 1)), s.2 (ix2 r (0 : Fin 1)))

theorem trips1_le (k : Fin k3_t1_loop.trips) : k.val < 16 := Nat.lt_of_lt_of_le k.isLt k3_t1_abs.2.1
theorem trips2_le (k : Fin k3_t2_loop.trips) : k.val < 16 := Nat.lt_of_lt_of_le k.isLt k3_t2_abs.2.1

/-- The block trip `k` of the first loop loads is rows 512·k … 512·k + 511: its entry (q, d) is the matrix at (512·k + q, d). -/
theorem ld_blkP (x : Vec Ideal S8192x256 .bf16) (k : Fin k3_t1_loop.trips) (q : Fin 512) (d : Fin 256) :
    View.ld x (blkP k) (ix2 q d) = x (ix2 (⟨512 * k.val + q.val, by have := trips1_le k; omega⟩ : Fin 8192) d) := by
  show x ((blkP k).emb (ix2 q d)) = _
  refine congrArg x (funext fun a => Fin.ext ?_)
  match a with
  | ⟨0, _⟩ =>
    show (k3_off1 k) 0 + 1 * q.val = 512 * k.val + q.val
    rw [k3_off1_eq]; show 512 * k.val + 1 * q.val = _; omega
  | ⟨1, _⟩ =>
    show (k3_off1 k) 1 + 1 * d.val = d.val
    rw [k3_off1_eq]; show 0 + 1 * d.val = _; omega

/-- The same for the second loop. -/
theorem ld_blkN (x : Vec Ideal S8192x256 .bf16) (k : Fin k3_t2_loop.trips) (q : Fin 512) (d : Fin 256) :
    View.ld x (blkN k) (ix2 q d) = x (ix2 (⟨512 * k.val + q.val, by have := trips2_le k; omega⟩ : Fin 8192) d) := by
  show x ((blkN k).emb (ix2 q d)) = _
  refine congrArg x (funext fun a => Fin.ext ?_)
  match a with
  | ⟨0, _⟩ =>
    show (k3_off2 k) 0 + 1 * q.val = 512 * k.val + q.val
    rw [k3_off2_eq]; show 512 * k.val + 1 * q.val = _; omega
  | ⟨1, _⟩ =>
    show (k3_off2 k) 1 + 1 * d.val = d.val
    rw [k3_off2_eq]; show 0 + 1 * d.val = _; omega

/-- Read at row `r`, the pair of payloads (new maximum, new sum) of a carried pair and a block `b` whose similarities
    against the row are `v` is one `step` of the specification. -/
theorem pays_step (a : Vec Ideal S1024x256 .bf16) (b : Vec Ideal S512x256 .bf16) (acc : FVec Ideal S1024x1 .f32 × FVec Ideal S1024x1 .f32)
    (r : Fin 1024) (v : Fin 512 → EReal) (hv : ∀ q, k3_pay4 (F := Ideal) a b (ix2 r q) = v q) :
    rowOf (k3_pay5 (F := Ideal) a acc.1 b, k3_pay6 (F := Ideal) a acc.1 acc.2 b) r = Cert.Spec.step v (rowOf acc r) := by
  have hf : (fun q : Fin 512 => k3_pay4 (F := Ideal) a b (ix2 r q)) = v := funext hv
  have h5 : k3_pay5 (F := Ideal) a acc.1 b (ix2 r (0 : Fin 1)) = (Cert.Spec.step v (rowOf acc r)).1 := by
    rw [pay5_apply, hf, Cert.Spec.ofBits_neg_inf]; rfl
  refine Prod.ext h5 ?_
  show k3_pay6 (F := Ideal) a acc.1 acc.2 b (ix2 r (0 : Fin 1)) = _
  rw [pay6_apply, h5]
  simp only [hv]
  rfl

section Loops
variable (c : Dev nD) (i : grid3.Coords) (arg1 : Memref sig .tc .vmem S1024x256 .bf16) (harg1 : arg1.IsWhole) (arg2 : Memref sig .tc .vmem S8192x256 .bf16) (harg2 : arg2.IsWhole) (arg3 : Memref sig .tc .vmem S8192x256 .bf16) (harg3 : arg3.IsWhole) (arg4 : Memref sig .tc .vmem S1024 .f32) (harg4 : arg4.IsWhole)

/-- One trip of the first loop at row `r`: a `step` over block `k` of the positives. -/
theorem trip1_row (x0 : Vec Ideal S1024x256 .bf16) (x1 : Vec Ideal S8192x256 .bf16) (A : Cert.Spec.Mat) (g : Fin 8192) (r : Fin 1024)
    (hA : ∀ d, x0 (ix2 r d) = A (ix2 g d)) (k : Fin k3_t1_loop.trips) (acc : FVec Ideal S1024x1 .f32 × FVec Ideal S1024x1 .f32) :
    rowOf (tripR_k3_t1 (F := Ideal) Variants.none c none i arg1 harg1 arg2 harg2 arg3 harg3 arg4 harg4 x0 (harg2.unread x1) k acc) r
      = Cert.Spec.step (Cert.Spec.blk A x1 g ⟨k.val, trips1_le k⟩) (rowOf acc r) := by
  rw [trip1_eq]
  refine pays_step x0 _ acc r _ fun q => ?_
  rw [pay4_apply]
  unfold Cert.Spec.blk Cert.Spec.dot
  refine congrArg (· * Cert.Spec.invTemp) (Finset.sum_congr rfl fun d _ => ?_)
  rw [ld_blkP x1 k q d, hA d]

/-- One trip of the second loop at row `r`: a `step` over block `k` of the negatives. -/
theorem trip2_row (x0 : Vec Ideal S1024x256 .bf16) (x2 : Vec Ideal S8192x256 .bf16) (A : Cert.Spec.Mat) (g : Fin 8192) (r : Fin 1024)
    (hA : ∀ d, x0 (ix2 r d) = A (ix2 g d)) (k : Fin k3_t2_loop.trips) (acc : FVec Ideal S1024x1 .f32 × FVec Ideal S1024x1 .f32) :
    rowOf (tripR_k3_t2 (F := Ideal) Variants.none c none i arg1 harg1 arg2 harg2 arg3 harg3 arg4 harg4 x0 (harg3.unread x2) k acc) r
      = Cert.Spec.step (Cert.Spec.blk A x2 g ⟨k.val, trips2_le k⟩) (rowOf acc r) := by
  rw [trip2_eq]
  show rowOf (k3_pay5 (F := Ideal) x0 acc.1 (View.ld x2 (blkN k)), k3_pay6 (F := Ideal) x0 acc.1 acc.2 (View.ld x2 (blkN k))) r = _
  refine pays_step x0 _ acc r _ fun q => ?_
  rw [pay4_apply]
  unfold Cert.Spec.blk Cert.Spec.dot
  refine congrArg (· * Cert.Spec.invTemp) (Finset.sum_congr rfl fun d _ => ?_)
  rw [ld_blkN x2 k q d, hA d]

theorem trips1_eq : k3_t1_loop.trips = 16 := by decide
theorem trips2_eq : k3_t2_loop.trips = 16 := by decide

/-- The pair carried into trip `n` of the first loop, at row `r`, is the specification's scan over the positives. -/
theorem scan1_row (x0 : Vec Ideal S1024x256 .bf16) (x1 : Vec Ideal S8192x256 .bf16) (A : Cert.Spec.Mat) (g : Fin 8192) (r : Fin 1024)
    (hA : ∀ d, x0 (ix2 r d) = A (ix2 g d)) (init : FVec Ideal S1024x1 .f32 × FVec Ideal S1024x1 .f32) :
    ∀ n, n ≤ 16 → rowOf (st_k3_t1 (F := Ideal) Variants.none c none i arg1 harg1 arg2 harg2 arg3 harg3 arg4 harg4 x0 (harg2.unread x1) init n) r
      = Cert.Spec.scan A x1 g (rowOf init r) n
  | 0, _ => rfl
  | n + 1, hn => by
    have hlt : n < k3_t1_loop.trips := by rw [trips1_eq]; omega
    have h := st_k3_t1_succ (F := Ideal) Variants.none c none i arg1 harg1 arg2 harg2 arg3 harg3 arg4 harg4 x0 (harg2.unread x1) init ⟨n, hlt⟩
    rw [show n + 1 = (⟨n, hlt⟩ : Fin k3_t1_loop.trips).val + 1 from rfl, h, trip1_row c i arg1 harg1 arg2 harg2 arg3 harg3 arg4 harg4 x0 x1 A g r hA]
    show _ = Cert.Spec.scan A x1 g (rowOf init r) (n + 1)
    rw [Cert.Spec.scan, dif_pos (show n < 16 by omega), ← scan1_row x0 x1 A g r hA init n (by omega)]

/-- The same for the second loop, over the negatives. -/
theorem scan2_row (x0 : Vec Ideal S1024x256 .bf16) (x2 : Vec Ideal S8192x256 .bf16) (A : Cert.Spec.Mat) (g : Fin 8192) (r : Fin 1024)
    (hA : ∀ d, x0 (ix2 r d) = A (ix2 g d)) (init : FVec Ideal S1024x1 .f32 × FVec Ideal S1024x1 .f32) :
    ∀ n, n ≤ 16 → rowOf (st_k3_t2 (F := Ideal) Variants.none c none i arg1 harg1 arg2 harg2 arg3 harg3 arg4 harg4 x0 (harg3.unread x2) init n) r
      = Cert.Spec.scan A x2 g (rowOf init r) n
  | 0, _ => rfl
  | n + 1, hn => by
    have hlt : n < k3_t2_loop.trips := by rw [trips2_eq]; omega
    have h := st_k3_t2_succ (F := Ideal) Variants.none c none i arg1 harg1 arg2 harg2 arg3 harg3 arg4 harg4 x0 (harg3.unread x2) init ⟨n, hlt⟩
    rw [show n + 1 = (⟨n, hlt⟩ : Fin k3_t2_loop.trips).val + 1 from rfl, h, trip2_row c i arg1 harg1 arg2 harg2 arg3 harg3 arg4 harg4 x0 x2 A g r hA]
    show _ = Cert.Spec.scan A x2 g (rowOf init r) (n + 1)
    rw [Cert.Spec.scan, dif_pos (show n < 16 by omega), ← scan2_row x0 x2 A g r hA init n (by omega)]

/-- The pair the body starts from is (−∞, 0) in every row. -/
theorem rowOf_init (r : Fin 1024) : rowOf (k3_pay2 (F := Ideal), k3_pay3 (F := Ideal)) r = (⊥, 0) := by
  show (Ideal.ofBits .f32 0xFF800000#32, Ideal.ofBits .f32 0x00000000#32) = _
  rw [Cert.Spec.ofBits_neg_inf, Ideal.ofBits_zero_f32]

/-- Row `r` of what the body stores is the specification's `krow` of row `g`, when the tile's row r is A's row g and the
    rows of the positives facing the tile hold P's row g at r. -/
theorem out3_row (x0 : Vec Ideal S1024x256 .bf16) (x1 x2 : Vec Ideal S8192x256 .bf16) (A : Cert.Spec.Mat) (g : Fin 8192) (r : Fin 1024)
    (hA : ∀ d, x0 (ix2 r d) = A (ix2 g d)) (hP : ∀ d, View.ld x1 (diagP i) (ix2 r d) = x1 (ix2 g d)) :
    out3_A_3 (F := Ideal) c i arg1 harg1 arg2 harg2 arg3 harg3 arg4 harg4 x0 x1 x2 (ix1 r) = Cert.Spec.krow A x1 x2 g := by
  rw [out3_eq, pay10_apply]
  have h2 := scan2_row c i arg1 harg1 arg2 harg2 arg3 harg3 arg4 harg4 x0 x2 A g r hA
    ((st1 c i arg1 harg1 arg2 harg2 arg3 harg3 arg4 harg4 x0 x1 16).1, (st1 c i arg1 harg1 arg2 harg2 arg3 harg3 arg4 harg4 x0 x1 16).2) 16 (Nat.le_refl _)
  have h1 := scan1_row c i arg1 harg1 arg2 harg2 arg3 harg3 arg4 harg4 x0 x1 A g r hA (k3_pay2, k3_pay3) 16 (Nat.le_refl _)
  rw [rowOf_init] at h1
  have h12 : rowOf (st2 c i arg1 harg1 arg2 harg2 arg3 harg3 arg4 harg4 x0 x1 x2 16) r = Cert.Spec.online A x1 x2 g := by
    unfold Cert.Spec.online
    rw [← h1]
    exact h2
  unfold Cert.Spec.krow Cert.Spec.dot
  rw [← h12]
  simp only [hA, hP]
  rfl

end Loops

end Cert.KernelIdeal.Reg3

end
-- ==== Proof.Reg3Value.lean ====
/-
  The fourth region, from its 8 blocks to the whole array of 8192 row losses.

  The region walks 8 points.  At point t it holds rows 1024 t … 1024 t + 1023 of the normalised anchors A (block t of A),
  the whole normalised positives P and negatives N (their one block, at every point), and writes block t of the output:
  entries 1024 t … 1024 t + 1023.  A block's coordinate in its array is index × size + the coordinate inside the block,
  so row r of the anchors' block is row g = 1024 t + r of A, the one block of P (of N) read back is P (is N), the rows of P
  the body loads beside the tile — rows 1024 t … 1024 t + 1023 — hold row g of P at r, and entry r of the output's block
  is entry g of the output.  The body's entry r is the running log-sum-exp of row g against P and N (`krow`), a function of
  row g of A and of all of P and N only; so what point t writes back is block t of the ONE array
        g ↦ krow A P N g,
  and since entry g lies in block g / 1024 the 8 write-backs cover the output, which ends holding that array.
-/
import proofs.«156210_j18399639896499_1_alg».proof.Proof.Reg3Scan
import Idealize.ShloMosaic.Lib.Pipeline.Value
import Idealize.ShloMosaic.Lib.ValueIdx

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat)
open Cert.KernelIdeal Cert.KernelIdeal.Gen

/-! ## One point, over any blocks -/

/-- The rows of a matrix of 8192 rows that the body loads beside the tile at grid point `i` are rows
    1024·i … 1024·i + 1023: entry (r, d) of what is loaded is the matrix at (1024·i + r, d). -/
theorem ld_diagP (x : Vec Ideal S8192x256 .bf16) (i : grid3.Coords) (r : Fin 1024) (d : Fin 256) (g : Fin 8192)
    (hg : g.val = 1024 * (i 0).val + r.val) : View.ld x (diagP i) (ix2 r d) = x (ix2 g d) := by
  show x ((diagP i).emb (ix2 r d)) = _
  refine congrArg x (funext fun a => Fin.ext ?_)
  match a with
  | ⟨0, _⟩ =>
    show (k3_off3 i) 0 + 1 * r.val = g.val
    rw [k3_off3_eq]; show 1024 * (i 0).val + 1 * r.val = _; omega
  | ⟨1, _⟩ =>
    show (k3_off3 i) 1 + 1 * d.val = d.val
    rw [k3_off3_eq]; show 0 + 1 * d.val = _; omega

/-- Entry r of what the body stores at grid point `i`, when the tile's row r is row g = 1024·i + r of A and the two whole
    blocks are P and N, is the kernel's row g of (A, P, N). -/
theorem out3_point (c : Dev nD) (i : grid3.Coords) (arg1 : Memref sig .tc .vmem S1024x256 .bf16) (harg1 : arg1.IsWhole)
    (arg2 : Memref sig .tc .vmem S8192x256 .bf16) (harg2 : arg2.IsWhole) (arg3 : Memref sig .tc .vmem S8192x256 .bf16) (harg3 : arg3.IsWhole)
    (arg4 : Memref sig .tc .vmem S1024 .f32) (harg4 : arg4.IsWhole)
    (x0 : Vec Ideal S1024x256 .bf16) (x1 x2 : Vec Ideal S8192x256 .bf16) (A P N : Cert.Spec.Mat) (g : Fin 8192) (r : Fin 1024)
    (hg : g.val = 1024 * (i 0).val + r.val) (hA : ∀ d, x0 (ix2 r d) = A (ix2 g d))
    (h1 : ∀ j, x1 j = P j) (h2 : ∀ j, x2 j = N j) :
    Gen.out3_A_3 (F := Ideal) c i arg1 harg1 arg2 harg2 arg3 harg3 arg4 harg4 x0 x1 x2 (ix1 r) = Cert.Spec.krow A P N g := by
  obtain rfl : x1 = P := funext h1
  obtain rfl : x2 = N := funext h2
  exact out3_row c i arg1 harg1 arg2 harg2 arg3 harg3 arg4 harg4 x0 x1 x2 A g r hA (fun d => ld_diagP x1 i r d g hg)

/-! ## The 8 points -/

section Region
-- the buffer contents the region finds when it is entered: any
variable (V : (c : Dev nD) → (b : Ref sig .tc) → Buf (Elt Ideal) ((c : Thread nD τ).loc b))

/-- The array the output ends holding: entry g is the kernel's row g of the three matrices the region finds. -/
abbrev rows (c : Dev nD) : S8192.Idx → EReal := fun j =>
  Cert.Spec.krow (V c (Pipeline.arrRef spec3 0)) (V c (Pipeline.arrRef spec3 1)) (V c (Pipeline.arrRef spec3 2)) (j 0)

/-- The block positions, decided over the 8 points: point t has grid coordinate t; the anchors' block is block row t,
    block column 0; the positives' and the negatives' block is block (0, 0); the output's block is block t. -/
theorem idx_facts3 : ∀ t : Fin cfg3.N, ((grid3.coords t) 0).val = t.val
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 1) = t.val :=
  (by decide +kernel : ∀ t : Fin grid3.N, _)

/-- What point t writes back is block t of `rows`: entry r of the block the body leaves is the kernel's row 1024 t + r,
    and the output's block puts it at entry 1024 t + r. -/
theorem flushed3_eq (c : Dev nD) (t : Fin cfg3.N) :
    (Gen.dat3 (F := Ideal) V c).flushed 3 t = ((cfg3.win 3).blk t).view.read (Elt Ideal) (rows V c) := by
  show (cfg3.win 3).cut (grid3.coords t) ((Gen.dat3 (F := Ideal) V c).after 3 t) = _
  rw [Gen.after3_3]
  unfold Gen.outsAt3
  obtain ⟨ec, e00, e01, e10, e11, e20, e21, e3⟩ := idx_facts3 t
  have hN : cfg3.N = 8 := Gen.N_3
  have ht : t.val < 8 := hN ▸ t.isLt
  funext j
  have hj0 : (j 0).val < 1024 := (j 0).isLt
  -- the entry's coordinate inside the block, and its place in the array
  have hL : (cfg3.win 3).xinj (grid3.coords t) j = ix1 (⟨(j 0).val, hj0⟩ : Fin 1024) :=
    funext fun a => by match a with | ⟨0, _⟩ => rfl
  have hR : ((cfg3.win 3).blk t).view.emb j = ix1 (⟨t.val * 1024 + (j 0).val, by omega⟩ : Fin 8192) :=
    funext fun a => Fin.ext (by
      match a with
      | ⟨0, _⟩ => show win3_3.index t (0 : Fin 1) * 1024 + 1 * (j 0).val = t.val * 1024 + (j 0).val; omega)
  show Gen.out3_A_3 (F := Ideal) c (grid3.coords t) (Gen.ms3_0 t) (Gen.hs3_0 t) (Gen.ms3_1 t) (Gen.hs3_1 t) (Gen.ms3_2 t) (Gen.hs3_2 t)
      (Gen.ms3_3 t) (Gen.hs3_3 t) (Gen.iblk3 V c 0 t) (Gen.iblk3 V c 1 t) (Gen.iblk3 V c 2 t) ((cfg3.win 3).xinj (grid3.coords t) j)
    = rows V c (((cfg3.win 3).blk t).view.emb j)
  rw [hL, hR]
  refine out3_point c (grid3.coords t) (Gen.ms3_0 t) (Gen.hs3_0 t) (Gen.ms3_1 t) (Gen.hs3_1 t) (Gen.ms3_2 t) (Gen.hs3_2 t)
    (Gen.ms3_3 t) (Gen.hs3_3 t) (Gen.iblk3 V c 0 t) (Gen.iblk3 V c 1 t) (Gen.iblk3 V c 2 t)
    (V c (Pipeline.arrRef spec3 0)) (V c (Pipeline.arrRef spec3 1)) (V c (Pipeline.arrRef spec3 2))
    (⟨t.val * 1024 + (j 0).val, by omega⟩ : Fin 8192) (⟨(j 0).val, hj0⟩ : Fin 1024) ?_ (fun d => ?_) (fun y => ?_) (fun y => ?_)
  · show t.val * 1024 + (j 0).val = 1024 * ((grid3.coords t) 0).val + (j 0).val
    omega
  · -- row r of the anchors' block at point t is row 1024 t + r of the anchors
    show V c (Pipeline.arrRef spec3 0) (((cfg3.win 0).blk t).view.emb (ix2 (⟨(j 0).val, hj0⟩ : Fin 1024) d)) = _
    refine congrArg (V c (Pipeline.arrRef spec3 0)) (funext fun a => Fin.ext ?_)
    match a with
    | ⟨0, _⟩ => show win3_0.index t (0 : Fin 2) * 1024 + 1 * (j 0).val = t.val * 1024 + (j 0).val; omega
    | ⟨1, _⟩ => show win3_0.index t (1 : Fin 2) * 256 + 1 * d.val = d.val; omega
  · -- the positives' one block, read back, is the positives
    show V c (Pipeline.arrRef spec3 1) (((cfg3.win 1).blk t).view.emb y) = V c (Pipeline.arrRef spec3 1) y
    refine congrArg (V c (Pipeline.arrRef spec3 1)) (funext fun a => Fin.ext ?_)
    match a with
    | ⟨0, _⟩ => show win3_1.index t (0 : Fin 2) * 8192 + 1 * (y 0).val = (y 0).val; omega
    | ⟨1, _⟩ => show win3_1.index t (1 : Fin 2) * 256 + 1 * (y 1).val = (y 1).val; omega
  · -- the negatives' one block, read back, is the negatives
    show V c (Pipeline.arrRef spec3 2) (((cfg3.win 2).blk t).view.emb y) = V c (Pipeline.arrRef spec3 2) y
    refine congrArg (V c (Pipeline.arrRef spec3 2)) (funext fun a => Fin.ext ?_)
    match a with
    | ⟨0, _⟩ => show win3_2.index t (0 : Fin 2) * 8192 + 1 * (y 0).val = (y 0).val; omega
    | ⟨1, _⟩ => show win3_2.index t (1 : Fin 2) * 256 + 1 * (y 1).val = (y 1).val; omega

/-- An entry of the output lies in the block of point t iff it lies in the block's range. -/
theorem mem_blk3 (t : Fin cfg3.N) (i : S8192.Idx) :
    i ∈ ((cfg3.win 3).blk t).view.set
      ↔ ∀ a : Fin 1, win3_3.index t a * S1024.size a ≤ (i a).val
          ∧ (i a).val < win3_3.index t a * S1024.size a + S1024.size a := by
  show i ∈ ((View.whole main_v3).slice (win3_3.rect t)).set ↔ _
  rw [View.set_slice_whole, Rect.mem_set_unit]
  exact Iff.rfl

/-- Every entry of the output is written back by some point: entry g lies in block g / 1024. -/
theorem cover3 (i : S8192.Idx) :
    ∃ t : Fin cfg3.N, (cfg3.win 3).flush t = true ∧ i ∈ ((cfg3.win 3).blk t).view.set := by
  have hN : cfg3.N = 8 := Gen.N_3
  have hi0 : (i 0).val < 8192 := (i 0).isLt
  refine ⟨⟨(i 0).val / 1024, by rw [hN]; omega⟩, Gen.flush3_3 _, ?_⟩
  obtain ⟨-, -, -, -, -, -, -, e3⟩ := idx_facts3 ⟨(i 0).val / 1024, by rw [hN]; omega⟩
  rw [mem_blk3]
  intro a
  match a with
  | ⟨0, _⟩ =>
    show win3_3.index _ (0 : Fin 1) * 1024 ≤ (i 0).val ∧ (i 0).val < win3_3.index _ (0 : Fin 1) * 1024 + 1024
    rw [e3]; show (i 0).val / 1024 * 1024 ≤ (i 0).val ∧ (i 0).val < (i 0).val / 1024 * 1024 + 1024; omega

/-- After the fourth region its output array holds, at entry g, the kernel's row g of the three matrices it found. -/
theorem arr3 (c : Dev nD) : (Gen.dat3 (F := Ideal) V c).arrAt 3 cfg3.N
    = fun j => Cert.Spec.krow (V c (Pipeline.arrRef spec3 0)) (V c (Pipeline.arrRef spec3 1)) (V c (Pipeline.arrRef spec3 2)) (j 0) :=
  (Gen.dat3 (F := Ideal) V c).arrAt_eq_of_cover 3 (rows V c) (fun t _ => flushed3_eq V c t) (cover3)

end Region

end Cert.KernelIdeal.Reg3

end
-- ==== Proof.RefNorm.lean ====
/-
  The reference's row normalisation, read entry by entry.

  For a matrix x of 8192 rows and 256 columns the reference forms, in this order: the entrywise squares x(r, k)²; their
  sum along each row, started from the word of 0; that sum as an [8192, 1] column; its square root; the larger of the root
  and ε, with ε spread over the column; that column spread over the 256 columns; and the quotient of x by it.
  Read at row r and column d this is
      x(r, d) / max(√(Σ_k x(r, k)²), ε),
  the specification's nrm. Only two facts are used: 0 + s = s absorbs the sum's initial value, and each spreading
  operation reads its operand at the entry's own row.
  The reference writes this sequence three times, once per argument; the three are the same function.
-/
import proofs.«156210_j18399639896499_1_alg».proof.Proof.RefReadP
import proofs.«156210_j18399639896499_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx

/-- An [8192, 256] f32 argument's contents at the ideal values: a matrix of extended reals. -/
abbrev Arg : Type := (⟨S8192x256, .f32⟩ : BufTy).Contents (Elt Ideal)

/-- Summing row r over the columns visits the entries (r, k). -/
theorem rowsum_idx (r : Fin 8192) (k : Fin 256) : idx_main_v1 (ix1 r) k = ix2 r k :=
  funext fun a => Fin.ext (by match a with | ⟨0, _⟩ => rfl | ⟨1, _⟩ => rfl)

/-- The entry (r, d) of the spread column reads the column at row r, which reads the row sums at r. -/
theorem spread_idx (r : Fin 8192) (d : Fin 256) : idx_main_v2 (idx_main_v6 (ix2 r d)) = ix1 r :=
  funext fun a => Fin.ext (by match a with | ⟨0, _⟩ => rfl)

/-- The row sum of the squares, from the initial 0: 0 + Σ_k x(r, k) · x(r, k) = Σ_k x(r, k)². -/
theorem rowsum (x : Arg) (r : Fin 8192) : val_main_v1 (F := Ideal) x (ix1 r) = Spec.sumsq x r := by
  rw [val_main_v1_apply, val_main_cst_apply, Ideal.ofBits_def, Ideal.ofBits_zero_f32, zero_add]
  exact Finset.sum_congr rfl fun k _ => by rw [val_main_v0_apply, Ideal.mulf_def, rowsum_idx]

/-- The normalised first argument: entry (r, d) is x(r, d) / max(√(Σ_k x(r, k)²), ε). -/
theorem nrm_arg0 (x : Arg) : val_main_v7 (F := Ideal) x = Spec.nrm x := by
  funext j
  obtain ⟨r, d, rfl⟩ : ∃ (r : Fin 8192) (d : Fin 256), j = ix2 r d := ⟨j 0, j 1, eq_ix2 j⟩
  rw [val_main_v7_apply, val_main_v6_apply, val_main_v5_apply, val_main_v3_apply, val_main_v2_apply, spread_idx, rowsum,
    val_main_v4_apply, val_main_cst_0_apply]
  -- what is left are the ideal values' own names for ÷, max, √ and the word of ε
  rfl

/-- The second argument goes through the same seven operations, written a second time in the reference. -/
theorem nrm_arg1 (x : Arg) : val_main_v15 (F := Ideal) x = Spec.nrm x := nrm_arg0 x

/-- The third argument likewise. -/
theorem nrm_arg2 (x : Arg) : val_main_v23 (F := Ideal) x = Spec.nrm x := nrm_arg0 x

end Cert.ReferenceIdeal.RefValue

end
-- ==== Proof.RefLogits.lean ====
/-
  The reference's 16384 logits of a row, read entry by entry.

  With A, P, N the three normalised matrices, the reference forms the two [8192, 8192] tables of inner products
  ⟨A_r, P_q⟩ and ⟨A_r, N_q⟩ (each a sum over the 256 shared columns), divides every entry by T, and lays the two tables
  side by side: column c of row r is ⟨A_r, P_c⟩ / T when c < 8192 and ⟨A_r, N_(c − 8192)⟩ / T otherwise. That is the
  specification's logit. The inner products are read off the contraction's sum by naming the two entries each term
  multiplies, (r, k) and (q, k); the side-by-side table is read by which of the two pieces a column falls in.
-/
import proofs.«156210_j18399639896499_1_alg».proof.Proof.RefNorm

noncomputable section

open scoped BigOperators

namespace Cert.ReferenceIdeal.RefValue

open Cert.ReferenceIdeal Cert.ReferenceIdeal.Gen Cert.ReferenceIdeal.ReadP Idealize.ShloMosaic Idealize.ShloMosaic.ValueIdx

/-- Term k of the inner product for entry (r, q) takes its left factor at (r, k) … -/
theorem dot_lidx (r q : Fin 8192) (k : Fin 256) : lidx_main_v24 (ix2 r q) k = ix2 r k :=
  funext fun a => Fin.ext (by match a with | ⟨0, _⟩ => rfl | ⟨1, _⟩ => rfl)

/-- … and its right factor at (q, k): both operands are contracted along their columns. -/
theorem dot_ridx (r q : Fin 8192) (k : Fin 256) : ridx_main_v24 (ix2 r q) k = ix2 q k :=
  funext fun a => Fin.ext (by match a with | ⟨0, _⟩ => rfl | ⟨1, _⟩ => rfl)

/-- The similarities against the positives: entry (r, q) is ⟨A_r, P_q⟩ / T. -/
theorem sim_pos (x0 x1 : Arg) (r q : Fin 8192) :
    val_main_v26 (F := Ideal) x0 x1 (ix2 r q) = Ideal.div (Spec.dot (Spec.nrm x0) (Spec.nrm x1) r q) Spec.temp := by
  rw [val_main_v26_apply, val_main_v24_apply, val_main_v25_apply, val_main_cst_5_apply, nrm_arg0, nrm_arg1]
  simp only [dot_lidx, dot_ridx]
  rfl

/-- The second table's contraction reads the same two entries: (r, k) on the left … -/
theorem dot_lidx_neg (r q : Fin 8192) (k : Fin 256) : lidx_main_v27 (ix2 r q) k = ix2 r k :=
  funext fun a => Fin.ext (by match a with | ⟨0, _⟩ => rfl | ⟨1, _⟩ => rfl)

/-- … and (q, k) on the right. -/
theorem dot_ridx_neg (r q : Fin 8192) (k : Fin 256) : ridx_main_v27 (ix2 r q) k = ix2 q k :=
  funext fun a => Fin.ext (by match a with | ⟨0, _⟩ => rfl | ⟨1, _⟩ => rfl)

/-- The similarities against the negatives: entry (r, q) is ⟨A_r, N_q⟩ / T (the same two operations, written again). -/
theorem sim_neg (x0 x2 : Arg) (r q : Fin 8192) :
    val_main_v29 (F := Ideal) x0 x2 (ix2 r q) = Ideal.div (Spec.dot (Spec.nrm x0) (Spec.nrm x2) r q) Spec.temp := by
  rw [val_main_v29_apply, val_main_v27_apply, val_main_v28_apply, val_main_cst_6_apply, nrm_arg0, nrm_arg2]
  simp only [dot_lidx_neg, dot_ridx_neg]
  rfl

/-- A column below 8192 of the side-by-side table is that column of the left table. -/
theorem logits_left (x0 x1 x2 : Arg) (r : Fin 8192) (c : Fin 16384) (h : c.val < 8192) :
    val_main_v30 (F := Ideal) x0 x1 x2 (ix2 r c) = val_main_v26 (F := Ideal) x0 x1 (ix2 r ⟨c.val, h⟩) :=
  concatenate_pair_apply_left (1 : Fin S8192x16384.rank) _ _ concatenates_S8192x8192_S8192x8192_S8192x16384_d1 (ix2 r c) rfl
    (ix2 r ⟨c.val, h⟩) (fun b => by match b with | ⟨0, _⟩ => rfl | ⟨1, _⟩ => rfl)

/-- A column from 8192 on is column c − 8192 of the right table: (c − 8192) + 8192 = c. -/
theorem logits_right (x0 x1 x2 : Arg) (r : Fin 8192) (c : Fin 16384) (h : ¬ c.val < 8192) :
    val_main_v30 (F := Ideal) x0 x1 x2 (ix2 r c) = val_main_v29 (F := Ideal) x0 x2 (ix2 r ⟨c.val - 8192, by omega⟩) :=
  concatenate_pair_apply_right (1 : Fin S8192x16384.rank) _ _ concatenates_S8192x8192_S8192x8192_S8192x16384_d1 (ix2 r c) rfl rfl
    (ix2 r ⟨c.val - 8192, by omega⟩)
    (fun b hb => by match b with | ⟨0, _⟩ => rfl | ⟨1, _⟩ => exact absurd rfl hb)
    (by show c.val - 8192 + 8192 = c.val; omega)

/-- THE LOGITS: entry (r, c) of the reference's table is the specification's logit c of row r. -/
theorem logits (x0 x1 x2 : Arg) (r : Fin 8192) (c : Fin 16384) :
    val_main_v30 (F := Ideal) x0 x1 x2 (ix2 r c) = Spec.logit (Spec.nrm x0) (Spec.nrm x1) (Spec.nrm x2) r c := by
  unfold Spec.logit
  by_cases h : c.val < 8192
  · rw [dif_pos h, logits_left x0 x1 x2 r c h, sim_pos]
  · rw [dif_neg h, logits_right x0 x1 x2 r c h, sim_neg]

/-- The same at an index not yet split into its coordinates. -/
theorem logits_at (x0 x1 x2 : Arg) (i : S8192x16384.Idx) :
    val_main_v30 (F := Ideal) x0 x1 x2 i = Spec.logit (Spec.nrm x0) (Spec.nrm x1) (Spec.nrm x2) (i 0) (i 1) := by
  obtain ⟨r, c, rfl⟩ : ∃ (r : Fin 8192) (c : Fin 16384), i = ix2 r c := ⟨i 0, i 1, eq_ix2 i⟩
  exact logits x0 x1 x2 r c

end Cert.ReferenceIdeal.RefValue

end
-- ==== Proof.RefValue.lean ====
/-
  Row r of the reference's result.

  From the 16384 logits z_0 … z_16383 of row r the reference computes the row of log-probabilities the stable way: the row
  maximum M (a fold of max from −∞; the reference then takes max(−∞, M), which is M again), the shifted logits z_c − M,
  the sum S = 0 + Σ_c exp(z_c − M), and (z_c − M) − log S. It then picks, for every row r, the entry in column r.
  The picking is a gather whose start indices are the pairs (r, r), computed as 32-bit words: each is "r if r ≥ 0, else r
  plus the extent" — r itself, since a row number below 8192 is a nonnegative word — and a start index inside the table is
  left where it is by the gather's clamping. So row r of the result is
      (z_r − M) − log Σ_c exp(z_c − M),
  the specification's rrow.
-/
import proofs.«156210_j18399639896499_1_alg».proof.Proof.RefLogits
import proofs.«156210_j18399639896499_1_alg».proof.Proof.Consts
import Idealize.ShloMosaic.Lib.Affine

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## The log-probabilities of a row -/

/-- Dropping the column axis of the [8192, 16384] table leaves the rows. -/
theorem drops_cols : S8192x16384.Reduces [1] S8192 := by decide

/-- Row r with column k put back is the entry (r, k). -/
theorem lift_row (r : Fin 8192) (k : Fin 16384) : drops_cols.lift (ix1 r) k = ix2 r k :=
  funext fun a => Fin.ext (by match a with | ⟨0, _⟩ => rfl | ⟨1, _⟩ => rfl)

/-- Summing row r over the 16384 columns visits the entries (r, k). -/
theorem rowsum_idx' (r : Fin 8192) (k : Fin 16384) : idx_main_call0_v7 (ix1 r) k = ix2 r k :=
  funext fun a => Fin.ext (by match a with | ⟨0, _⟩ => rfl | ⟨1, _⟩ => rfl)

/-- An entry of a column spread over the 16384 columns reads the column at its row, which reads the row values at r. -/
theorem spread_max_idx (r : Fin 8192) (c : Fin 16384) : idx_main_call0_v3 (idx_main_call0_v4 (ix2 r c)) = ix1 r :=
  funext fun a => Fin.ext (by match a with | ⟨0, _⟩ => rfl)

/-- The same for the column of the logarithms. -/
theorem spread_log_idx (r : Fin 8192) (c : Fin 16384) : idx_main_call0_v8 (idx_main_call0_v10 (ix2 r c)) = ix1 r :=
  funext fun a => Fin.ext (by match a with | ⟨0, _⟩ => rfl)

/-- The reduction by max over the columns, from −∞, is the fold of max from ⊥ over the row's logits: the row maximum. -/
theorem rowmax_fold (x0 x1 x2 : Arg) (r : Fin 8192) :
    val_main_call0_v0 (F := Ideal) x0 x1 x2 (ix1 r) = Spec.rowMax (Spec.nrm x0) (Spec.nrm x1) (Spec.nrm x2) r := by
  unfold val_main_call0_v0
  refine (Host.reduce_eq_fold_single (FloatOps.maximumf (F := Ideal) (φ := .f32)) _ _ reducesTo_S8192x16384_S8192_d1
    drops_cols h_S_ (ix1 r)).trans ?_
  -- the same fold in the row's own terms: max of extended reals, from the word of −∞, over the columns k of row r
  show Finset.fold max (Ideal.ofBits .f32 0xFF800000#32)
      (fun k : Fin 16384 => val_main_v30 (F := Ideal) x0 x1 x2 (drops_cols.lift (ix1 r) k)) Finset.univ
    = Finset.fold max ⊥ (Spec.logit (Spec.nrm x0) (Spec.nrm x1) (Spec.nrm x2) r) Finset.univ
  rw [Spec.ofBits_neg_inf]
  exact Finset.fold_congr fun k _ => by rw [lift_row, logits]

/-- The larger of −∞ and the row maximum is the row maximum; spread over the columns, every entry of row r holds it. -/
theorem rowmax_spread (x0 x1 x2 : Arg) (r : Fin 8192) (c : Fin 16384) :
    val_main_call0_v4 (F := Ideal) x0 x1 x2 (ix2 r c) = Spec.rowMax (Spec.nrm x0) (Spec.nrm x1) (Spec.nrm x2) r := by
  rw [val_main_call0_v4_apply, val_main_call0_v3_apply, spread_max_idx, val_main_call0_v2_apply, val_main_call0_v1_apply,
    val_main_call0_cst_0_apply, rowmax_fold, Ideal.maximumf_def, Ideal.ofBits_def, Spec.ofBits_neg_inf, max_bot_left]

/-- The shifted logit z_c − M. -/
theorem shifted (x0 x1 x2 : Arg) (r : Fin 8192) (c : Fin 16384) :
    val_main_call0_v5 (F := Ideal) x0 x1 x2 (ix2 r c)
      = Spec.logit (Spec.nrm x0) (Spec.nrm x1) (Spec.nrm x2) r c - Spec.rowMax (Spec.nrm x0) (Spec.nrm x1) (Spec.nrm x2) r := by
  rw [val_main_call0_v5_apply, logits, rowmax_spread, Ideal.subf_def]

/-- The sum of the shifted exponentials, from the initial 0: 0 + Σ_c exp(z_c − M) = Σ_c exp(z_c − M). -/
theorem sumexp (x0 x1 x2 : Arg) (r : Fin 8192) :
    val_main_call0_v7 (F := Ideal) x0 x1 x2 (ix1 r)
      = ∑ j : Fin 16384, Ideal.exp (Spec.logit (Spec.nrm x0) (Spec.nrm x1) (Spec.nrm x2) r j
          - Spec.rowMax (Spec.nrm x0) (Spec.nrm x1) (Spec.nrm x2) r) := by
  rw [val_main_call0_v7_apply, val_main_call0_cst_1_apply, Ideal.ofBits_def, Ideal.ofBits_zero_f32, zero_add]
  exact Finset.sum_congr rfl fun k _ => by rw [rowsum_idx', val_main_call0_v6_apply, shifted, Ideal.hostUnary_exp_def]

/-- The logarithm of that sum, spread over the columns of row r. -/
theorem logsum_spread (x0 x1 x2 : Arg) (r : Fin 8192) (c : Fin 16384) :
    val_main_call0_v10 (F := Ideal) x0 x1 x2 (ix2 r c)
      = Ideal.log (∑ j : Fin 16384, Ideal.exp (Spec.logit (Spec.nrm x0) (Spec.nrm x1) (Spec.nrm x2) r j
          - Spec.rowMax (Spec.nrm x0) (Spec.nrm x1) (Spec.nrm x2) r)) := by
  rw [val_main_call0_v10_apply, val_main_call0_v9_apply, val_main_call0_v8_apply, spread_log_idx, sumexp, Ideal.hostUnary_log_def]

/-- THE LOG-PROBABILITY at (r, c): (z_c − M) − log Σ_j exp(z_j − M). -/
theorem logprob (x0 x1 x2 : Arg) (r : Fin 8192) (c : Fin 16384) :
    val_main_v31 (F := Ideal) x0 x1 x2 (ix2 r c)
      = (Spec.logit (Spec.nrm x0) (Spec.nrm x1) (Spec.nrm x2) r c - Spec.rowMax (Spec.nrm x0) (Spec.nrm x1) (Spec.nrm x2) r)
        - Ideal.log (∑ j : Fin 16384, Ideal.exp (Spec.logit (Spec.nrm x0) (Spec.nrm x1) (Spec.nrm x2) r j
            - Spec.rowMax (Spec.nrm x0) (Spec.nrm x1) (Spec.nrm x2) r)) := by
  rw [val_main_v31_apply, shifted, logsum_spread, Ideal.subf_def]

/-! ## The start indices (r, r) as 32-bit words -/

/-- A number below 2³¹ is, as a 32-bit word read signed, itself. -/
theorem word_toInt (n : Nat) (hn : n < 2147483648) : (BitVec.ofNat 32 n).toInt = (n : Int) := by
  have h1 : (BitVec.ofNat 32 n).toNat = n := by rw [BitVec.toNat_ofNat]; omega
  rw [BitVec.toInt_eq_toNat_of_lt (by rw [h1]; omega), h1]

/-- "n if n ≥ 0, else n + e" is n for such a word: the signed comparison n < 0 fails, so the select keeps n. -/
theorem wrap_nonneg (n : Nat) (hn : n < 2147483648) (e : BitVec 32) :
    Scalar.select (IntOp.cmpi .slt (BitVec.ofNat 32 n) 0#32) (IntOp.addi (BitVec.ofNat 32 n) e) (BitVec.ofNat 32 n)
      = BitVec.ofNat 32 n := by
  have hc : ¬ IntOp.cmpi .slt (BitVec.ofNat 32 n) 0#32 = 1#1 := by
    rw [IntOp.cmpi_slt, word_toInt n hn]; simp
  exact if_neg hc

/-- The row start index of row r is the word of r. -/
theorem start_row (r : Fin 8192) : val_main_v37 (F := Ideal) (ix1 r) = BitVec.ofNat 32 r.val := by
  rw [val_main_v37_apply, val_main_v34_apply, val_main_v36_apply, val_main_v32_apply, val_main_v33_apply, val_main_c_apply]
  exact wrap_nonneg r.val (by omega) _

/-- The column start index of row r is the word of r too. -/
theorem start_col (r : Fin 8192) : val_main_v42 (F := Ideal) (ix1 r) = BitVec.ofNat 32 r.val := by
  rw [val_main_v42_apply, val_main_v39_apply, val_main_v41_apply, val_main_v32_apply, val_main_v38_apply, val_main_c_8_apply]
  exact wrap_nonneg r.val (by omega) _

/-- The pair of start indices of row r, first component: the left piece of the two columns laid side by side. -/
theorem starts_fst (r : Fin 8192) : val_main_v45 (F := Ideal) (ix2 r (0 : Fin 2)) = BitVec.ofNat 32 r.val := by
  have h : val_main_v45 (F := Ideal) (ix2 r (0 : Fin 2)) = val_main_v43 (F := Ideal) (ix2 r (0 : Fin 1)) :=
    concatenate_pair_apply_left (1 : Fin S8192x2.rank) _ _ concatenates_S8192x1_S8192x1_S8192x2_d1 (ix2 r (0 : Fin 2)) rfl
      (ix2 r (0 : Fin 1)) (fun b => by match b with | ⟨0, _⟩ => rfl | ⟨1, _⟩ => rfl)
  have e : idx_main_v43 (ix2 r (0 : Fin 1)) = ix1 r := funext fun a => Fin.ext (by match a with | ⟨0, _⟩ => rfl)
  rw [h, val_main_v43_apply, e, start_row]

/-- Second component: the right piece, 0 + 1 = 1. -/
theorem starts_snd (r : Fin 8192) : val_main_v45 (F := Ideal) (ix2 r (1 : Fin 2)) = BitVec.ofNat 32 r.val := by
  have h : val_main_v45 (F := Ideal) (ix2 r (1 : Fin 2)) = val_main_v44 (F := Ideal) (ix2 r (0 : Fin 1)) :=
    concatenate_pair_apply_right (1 : Fin S8192x2.rank) _ _ concatenates_S8192x1_S8192x1_S8192x2_d1 (ix2 r (1 : Fin 2)) rfl rfl
      (ix2 r (0 : Fin 1)) (fun b hb => by match b with | ⟨0, _⟩ => rfl | ⟨1, _⟩ => exact absurd rfl hb) rfl
  have e : idx_main_v44 (ix2 r (0 : Fin 1)) = ix1 r := funext fun a => Fin.ext (by match a with | ⟨0, _⟩ => rfl)
  rw [h, val_main_v44_apply, e, start_col]

/-! ## The gather of one entry per row -/

/-- THE GATHER READ AT ROW r. Both axes of the table are collapsed and both are named by the start index map, so the
    entry read is the table's at (p, q): p the first component of row r's start index, read signed and clamped into
    [0, 8192 − 1], q the second, clamped into [0, 16384 − 1]. -/
theorem gather_pair {α : Type} (x : S8192x16384.Idx → α) (idx : IVec S8192x2 32) (r p : Fin 8192) (q : Fin 16384)
    (hp : min (idx (ix2 r (0 : Fin 2))).toInt.toNat (8192 - 1) = p.val)
    (hq : min (idx (ix2 r (1 : Fin 2))).toInt.toNat (16384 - 1) = q.val) :
    Host.gather gather_S8192x16384_S8192x2_S8192_n_01_n_n_01_1_11 x idx (ix1 r) = x (ix2 p q) := by
  unfold Host.gather
  congr 1
  funext a
  refine Fin.ext ?_
  match a with
  | ⟨0, _⟩ =>
    show gather_S8192x16384_S8192x2_S8192_n_01_n_n_01_1_11.start (ix1 r) idx 0
      + gather_S8192x16384_S8192x2_S8192_n_01_n_n_01_1_11.batchCoord (ix1 r) 0
      + gather_S8192x16384_S8192x2_S8192_n_01_n_n_01_1_11.offCoord (ix1 r) 0 = p.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x16384_S8192x2_S8192_n_01_n_n_01_1_11.startIndexMap by decide)]
    have hsi : gather_S8192x16384_S8192x2_S8192_n_01_n_n_01_1_11.siIdx (ix1 r)
        ⟨List.idxOf (0 : Fin 2) gather_S8192x16384_S8192x2_S8192_n_01_n_n_01_1_11.startIndexMap,
          List.idxOf_lt_length_iff.2 (by decide)⟩ = ix2 r (0 : Fin 2) := by
      funext b; refine Fin.ext ?_
      match b with
      | ⟨0, _⟩ => rfl
      | ⟨1, _⟩ => rfl
    rw [hsi]
    exact hp
  | ⟨1, _⟩ =>
    show gather_S8192x16384_S8192x2_S8192_n_01_n_n_01_1_11.start (ix1 r) idx 1
      + gather_S8192x16384_S8192x2_S8192_n_01_n_n_01_1_11.batchCoord (ix1 r) 1
      + gather_S8192x16384_S8192x2_S8192_n_01_n_n_01_1_11.offCoord (ix1 r) 1 = q.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x16384_S8192x2_S8192_n_01_n_n_01_1_11.startIndexMap by decide)]
    have hsi : gather_S8192x16384_S8192x2_S8192_n_01_n_n_01_1_11.siIdx (ix1 r)
        ⟨List.idxOf (1 : Fin 2) gather_S8192x16384_S8192x2_S8192_n_01_n_n_01_1_11.startIndexMap,
          List.idxOf_lt_length_iff.2 (by decide)⟩ = ix2 r (1 : Fin 2) := by
      funext b; refine Fin.ext ?_
      match b with
      | ⟨0, _⟩ => rfl
      | ⟨1, _⟩ => rfl
    rw [hsi]
    exact hq

/-- The clamp leaves a start index below the extent where it is: min(r, n − 1) = r for r < n. -/
theorem clamp_word (n : Nat) (m : Nat) (hn : n < 2147483648) (hm : n < m) :
    min (BitVec.ofNat 32 n).toInt.toNat (m - 1) = n := by
  rw [word_toInt n hn, Int.toNat_natCast]; omega

/-- THE ROW: entry r of the reference's gathered vector is the specification's row r. -/
theorem row (x0 x1 x2 : Arg) (r : Fin 8192) :
    val_main_v46 (F := Ideal) x0 x1 x2 (ix1 r) = Spec.rrow (Spec.nrm x0) (Spec.nrm x1) (Spec.nrm x2) r := by
  unfold val_main_v46
  rw [gather_pair _ _ r r ⟨r.val, by omega⟩
      (by rw [starts_fst]; exact clamp_word r.val 8192 (by omega) r.isLt)
      (by rw [starts_snd]; exact clamp_word r.val 16384 (by omega) (by omega)),
    logprob]
  rfl

/-- The same at an index not yet split into its coordinate. -/
theorem row_at (x0 x1 x2 : Arg) (i : S8192.Idx) :
    val_main_v46 (F := Ideal) x0 x1 x2 i = Spec.rrow (Spec.nrm x0) (Spec.nrm x1) (Spec.nrm x2) (i 0) := by
  obtain ⟨r, rfl⟩ : ∃ r : Fin 8192, i = ix1 r := ⟨i 0, eq_ix1 i⟩
  exact row x0 x1 x2 r

end Cert.ReferenceIdeal.RefValue

end
-- ==== Proof.Reals.lean ====
/-
  Rows of real numbers inside the extended reals, and the shift law of log-sum-exp.

  The statement's values live in [−∞, ∞], but on real inputs every value in a row is a real: a real row has a real,
  nonnegative sum of squares s, the real root √s, and max(√s, ε) ≥ ε > 0 is a nonzero real, by which dividing is multiplying
  with the reciprocal; an inner product of real rows is a finite sum of products of reals; and the maximum of a nonempty
  finite family of reals, started at −∞, is a real.

  For ANY real shift c and any nonempty finite family of reals z_j,
        c + log Σ_j exp(z_j − c) = log Σ_j exp(z_j),                                                   (lse_shift)
  because exp(z_j − c) = exp(z_j) · exp(−c), the common factor leaves the sum, and the log of a product of positives is the
  sum of the logs.  So m + log l at a pair (m, l) = (c, Σ_j exp(z_j − c)) does not depend on the real c it is shifted by.
-/
import Mathlib.Analysis.SpecialFunctions.Log.Basic
import proofs.«156210_j18399639896499_1_alg».proof.Proof.Spec
import proofs.«156210_j18399639896499_1_alg».proof.Proof.Consts

noncomputable section

open scoped BigOperators

namespace Cert.Spec

open Idealize.ShloMosaic Idealize.ShloMosaic.ValueIdx

/-! ### Reals inside the extended reals -/

/-- The inclusion ℝ → [−∞, ∞] carries a finite sum to the sum of the inclusions (it carries 0 to 0 and + to +). -/
theorem coe_sum {ι : Type} (s : Finset ι) (g : ι → ℝ) :
    (∑ j ∈ s, ((g j : ℝ) : EReal)) = ((∑ j ∈ s, g j : ℝ) : EReal) := by
  classical
  induction s using Finset.induction_on with
  | empty => simp
  | insert a s ha ih => rw [Finset.sum_insert ha, Finset.sum_insert ha, ih, EReal.coe_add]

/-- The inclusion is monotone, so it carries the larger of two reals to the larger of their inclusions. -/
theorem coe_max' (x y : ℝ) : max (x : EReal) (y : EReal) = ((max x y : ℝ) : EReal) :=
  (EReal.coe_strictMono.monotone.map_max).symm

/-- A finite sum of reals is a real. -/
theorem sum_isReal {ι : Type} (s : Finset ι) (f : ι → EReal) (hf : IsReal f) :
    ∃ r : ℝ, ∑ j ∈ s, f j = (r : EReal) := by
  have hf' : ∀ j, ∃ r : ℝ, f j = (r : EReal) := hf
  choose g hg using hf'
  exact ⟨∑ j ∈ s, g j, by rw [← coe_sum]; exact Finset.sum_congr rfl fun j _ => hg j⟩

/-- The maximum, started at −∞, of a nonempty finite family of reals is a real: it is above one of them, hence above −∞,
    and each of them is below +∞, hence so is it. -/
theorem fold_max_real {ι : Type} (s : Finset ι) (hs : s.Nonempty) (f : ι → EReal) (hf : IsReal f) :
    ∃ r : ℝ, s.fold max ⊥ f = (r : EReal) := by
  have hb : s.fold max ⊥ f ≠ ⊥ := by
    obtain ⟨j, hj⟩ := hs
    obtain ⟨r, hr⟩ := hf j
    exact ne_of_gt ((Finset.lt_fold_max ⊥).mpr (Or.inr ⟨j, hj, by rw [hr]; exact EReal.bot_lt_coe r⟩))
  have ht : s.fold max ⊥ f ≠ ⊤ :=
    ne_of_lt ((Finset.fold_max_lt ⊤).mpr ⟨bot_lt_top, fun j _ => by
      obtain ⟨r, hr⟩ := hf j; rw [hr]; exact EReal.coe_lt_top r⟩)
  exact ⟨_, (EReal.coe_toReal ht hb).symm⟩

/-! ### Normalised rows and their inner products are real -/

/-- ⟨a_i, b_j⟩ of real rows is a real: a finite sum of products of reals. -/
theorem dot_isReal (a b : Mat) (ha : IsReal a) (hb : IsReal b) (i j : Fin 8192) :
    ∃ r : ℝ, dot a b i j = (r : EReal) := by
  refine sum_isReal Finset.univ (fun k : Fin 256 => a (ix2 i k) * b (ix2 j k)) fun k => ?_
  obtain ⟨x, hx⟩ := ha (ix2 i k)
  obtain ⟨y, hy⟩ := hb (ix2 j k)
  exact ⟨x * y, by show a (ix2 i k) * b (ix2 j k) = _; rw [hx, hy, EReal.coe_mul]⟩

/-- The sum of squares of a real row is a nonnegative real. -/
theorem sumsq_real (x : Mat) (hx : IsReal x) (r : Fin 8192) : ∃ s : ℝ, 0 ≤ s ∧ sumsq x r = (s : EReal) := by
  have hx' : ∀ j, ∃ t : ℝ, x j = (t : EReal) := hx
  choose g hg using hx'
  refine ⟨∑ k : Fin 256, g (ix2 r k) * g (ix2 r k), Finset.sum_nonneg fun k _ => mul_self_nonneg _, ?_⟩
  rw [← coe_sum]
  exact Finset.sum_congr rfl fun k _ => by rw [hg, EReal.coe_mul]

/-- x(r, d) / max(√(Σ_k x(r, k)²), ε) is a real when the row is: the sum of squares s is a nonnegative real, so √s is its
    real root; ε is a positive real, so max(√s, ε) ≥ ε > 0 is a nonzero real, and dividing by it is multiplying by its
    reciprocal. -/
theorem nrm_isReal (x : Mat) (hx : IsReal x) : IsReal (nrm x) := by
  intro j
  obtain ⟨s, hs0, hs⟩ := sumsq_real x hx (j 0)
  obtain ⟨e, he, hee⟩ := eps_pos
  obtain ⟨t, ht⟩ := hx j
  have hd : (max (Real.sqrt s) e) ≠ 0 := ne_of_gt (lt_max_of_lt_right he)
  unfold nrm
  rw [hs, Ideal.sqrt_coe, if_neg (not_lt.mpr hs0), hee, coe_max', Ideal.div_coe hd, ht, ← EReal.coe_mul]
  exact ⟨_, rfl⟩

/-! ### The shift law of log-sum-exp -/

/-- c + log Σ_j exp(z_j − c) = log Σ_j exp(z_j): exp(z_j − c) = exp(z_j) · exp(−c), the common factor leaves the sum, and
    log(A · exp(−c)) = log A − c for A > 0. -/
theorem lse_shift {ι : Type} (s : Finset ι) (hs : s.Nonempty) (f : ι → ℝ) (c : ℝ) :
    c + Real.log (∑ j ∈ s, Real.exp (f j - c)) = Real.log (∑ j ∈ s, Real.exp (f j)) := by
  have hpos : 0 < ∑ j ∈ s, Real.exp (f j) := Finset.sum_pos (fun j _ => Real.exp_pos _) hs
  have h : ∑ j ∈ s, Real.exp (f j - c) = (∑ j ∈ s, Real.exp (f j)) * Real.exp (-c) := by
    rw [Finset.sum_mul]
    exact Finset.sum_congr rfl fun j _ => by rw [← Real.exp_add, sub_eq_add_neg]
  rw [h, Real.log_mul hpos.ne' (Real.exp_pos _).ne', Real.log_exp]
  ring

end Cert.Spec

end
-- ==== Proof.Softmax.lean ====
/-
  The online log-sum-exp equals the two-pass one, on rows of real numbers.

  Fix a row.  Its 16384 logits are reals z_0 … z_16383 (inner products of real rows times the real 1/T; dividing by T is
  multiplying by 1/T), and the kernel's blocks hold the same reals, 512 at a time: block k of P holds z_{512k} … z_{512k+511},
  block k of N holds z_{8192+512k} … z_{8192+512k+511}.

  The walk keeps the invariant (Seen): before any column the pair is (−∞, 0); after the first S > 0 columns it is
        (M, Σ_{j<S} exp(z_j − M))   for a real M.
  One block of 512 reals with maximum F moves it from S to S + 512 (step_seen): the new first component is the real
  M' = max(M, F), and
        (Σ_{j<S} exp(z_j − M)) · exp(M − M') + Σ_{q<512} exp(z_{S+q} − M') = Σ_{j<S+512} exp(z_j − M')          (rescale)
  by exp(x) · exp(y) = exp(x + y) under the first sum.  From (−∞, 0) the first block gives max(−∞, F) = F and
  0 · exp(…) + Σ_q exp(z_q − F), the same shape with an empty sum on the left.

  After 16 + 16 blocks the pair is (M, L) with L = Σ_{j<16384} exp(z_j − M) > 0, so the kernel's row is the real
        z_i − (M + log L),
  while the reference's, with R the real row maximum, is the real
        (z_i − R) − log Σ_j exp(z_j − R).
  Both M + log L and R + log Σ_j exp(z_j − R) are log Σ_j exp(z_j) by the shift law, which holds for every real shift: that
  M is also the maximum is true and never used.
-/
import Mathlib.Analysis.SpecialFunctions.Log.Basic
import proofs.«156210_j18399639896499_1_alg».proof.Proof.Spec
import proofs.«156210_j18399639896499_1_alg».proof.Proof.Consts
import proofs.«156210_j18399639896499_1_alg».proof.Proof.Reals

noncomputable section

open scoped BigOperators

namespace Cert.Spec

open Idealize.ShloMosaic Idealize.ShloMosaic.ValueIdx

/-! ### One block of the walk -/

/-- The running pair after the first `S` columns of the real row `Z`: (−∞, 0) before any column, and
    (M, Σ_{j<S} exp(Z_j − M)) for some real M afterwards. -/
def Seen (Z : ℕ → ℝ) (S : ℕ) (ml : EReal × EReal) : Prop :=
  (S = 0 ∧ ml = (⊥, 0)) ∨
    ∃ M : ℝ, ml = ((M : EReal), ((∑ j ∈ Finset.range S, Real.exp (Z j - M) : ℝ) : EReal))

/-- Changing the shift from M to M' and appending 512 columns:
    (Σ_{j<S} exp(Z_j − M)) · exp(M − M') + Σ_{q<512} exp(Z_{S+q} − M') = Σ_{j<S+512} exp(Z_j − M'),
    since exp(Z_j − M) · exp(M − M') = exp(Z_j − M') term by term. -/
theorem rescale (Z : ℕ → ℝ) (S : ℕ) (M M' : ℝ) :
    (∑ j ∈ Finset.range S, Real.exp (Z j - M)) * Real.exp (M - M')
        + ∑ q ∈ Finset.range 512, Real.exp (Z (S + q) - M')
      = ∑ j ∈ Finset.range (S + 512), Real.exp (Z j - M') := by
  rw [Finset.sum_range_add, Finset.sum_mul]
  congr 1
  exact Finset.sum_congr rfl fun j _ => by rw [← Real.exp_add, sub_add_sub_cancel]

/-- A block of 512 reals Z_S … Z_{S+511}, shifted by a real M' and exponentiated, sums to the real Σ_{q<512} exp(Z_{S+q} − M'). -/
theorem block_sum (Z : ℕ → ℝ) (S : ℕ) (v : Fin 512 → EReal)
    (hv : ∀ q : Fin 512, v q = ((Z (S + q.val) : ℝ) : EReal)) (M' : ℝ) :
    ∑ q : Fin 512, Ideal.exp (v q - (M' : EReal))
      = ((∑ q ∈ Finset.range 512, Real.exp (Z (S + q) - M') : ℝ) : EReal) := by
  rw [Finset.sum_range (fun q => Real.exp (Z (S + q) - M')), ← coe_sum]
  exact Finset.sum_congr rfl fun q _ => by rw [hv q, ← EReal.coe_sub, Ideal.exp_coe]

/-- One block moves the invariant from S columns to S + 512.  The block's maximum is a real F.  From (−∞, 0):
    max(−∞, F) = F and 0 · exp(…) + Σ_q exp(Z_q − F) is the sum over the first 512 columns.  From (M, L): max(M, F) is the
    real M' and L · exp(M − M') + Σ_q exp(Z_{S+q} − M') is the sum over S + 512 columns by `rescale`. -/
theorem step_seen (Z : ℕ → ℝ) (S : ℕ) (v : Fin 512 → EReal)
    (hv : ∀ q : Fin 512, v q = ((Z (S + q.val) : ℝ) : EReal))
    (ml : EReal × EReal) (h : Seen Z S ml) : Seen Z (S + 512) (step v ml) := by
  obtain ⟨F, hF⟩ := fold_max_real Finset.univ Finset.univ_nonempty v (fun q => ⟨_, hv q⟩)
  rcases h with ⟨hS, rfl⟩ | ⟨M, rfl⟩
  · subst hS
    refine Or.inr ⟨F, ?_⟩
    simp only [step]
    rw [hF, max_eq_right bot_le, zero_mul, zero_add, block_sum Z 0 v hv F, Finset.sum_range_add,
      Finset.sum_range_zero, zero_add]
  · refine Or.inr ⟨max M F, ?_⟩
    simp only [step]
    rw [hF, coe_max', block_sum Z S v hv (max M F), ← EReal.coe_sub, Ideal.exp_coe, ← EReal.coe_mul,
      ← EReal.coe_add, rescale]

/-! ### Sixteen blocks -/

/-- Walking `n ≤ 16` blocks of `b`, whose block k holds the reals Z_{off+512k} … Z_{off+512k+511}, from a pair that has seen
    `off` columns gives a pair that has seen off + 512·n: induction on n with `step_seen`. -/
theorem scan_seen (a b : Mat) (i : Fin 8192) (Z : ℕ → ℝ) (off : ℕ)
    (hb : ∀ (k : Fin 16) (q : Fin 512), blk a b i k q = ((Z (off + 512 * k.val + q.val) : ℝ) : EReal))
    (init : EReal × EReal) (hinit : Seen Z off init) (n : ℕ) :
    n ≤ 16 → Seen Z (off + 512 * n) (scan a b i init n) := by
  induction n with
  | zero => intro _; exact hinit
  | succ n ih =>
    intro hn
    have hlt : n < 16 := hn
    have hs := step_seen Z (off + 512 * n) (blk a b i ⟨n, hlt⟩) (fun q => hb ⟨n, hlt⟩ q) _ (ih (le_of_lt hlt))
    rw [scan, dif_pos hlt, show off + 512 * (n + 1) = off + 512 * n + 512 by ring]
    exact hs

/-! ### The row -/

/-- Logit j < 8192 of row i is ⟨a_i, p_j⟩ · (1/T): dividing by T is multiplying by 1/T. -/
theorem logit_lo (a p n : Mat) (i j : Fin 8192) :
    logit a p n i ⟨j.val, by omega⟩ = dot a p i j * invTemp := by
  rw [logit, dif_pos j.isLt, div_temp]

/-- Logit 8192 + j of row i is ⟨a_i, n_j⟩ · (1/T). -/
theorem logit_hi (a p n : Mat) (i j : Fin 8192) :
    logit a p n i ⟨8192 + j.val, by omega⟩ = dot a n i j * invTemp := by
  have h : ¬ (8192 + j.val < 8192) := by omega
  rw [logit, dif_neg h, div_temp]
  exact congrArg (fun x => dot a n i x * invTemp) (Fin.ext (Nat.add_sub_cancel_left 8192 j.val))

/-- The logits of a row are reals: inner products of real rows, times the real 1/T. -/
theorem logit_isReal (a p n : Mat) (ha : IsReal a) (hp : IsReal p) (hn : IsReal n) (i : Fin 8192) :
    IsReal (logit a p n i) := by
  intro j
  by_cases h : j.val < 8192
  · obtain ⟨r, hr⟩ := dot_isReal a p ha hp i ⟨j.val, h⟩
    exact ⟨r * (268435456 / 13421773), by rw [logit, dif_pos h, hr, div_temp, invTemp, EReal.coe_mul]⟩
  · obtain ⟨r, hr⟩ := dot_isReal a n ha hn i ⟨j.val - 8192, by omega⟩
    exact ⟨r * (268435456 / 13421773), by rw [logit, dif_neg h, hr, div_temp, invTemp, EReal.coe_mul]⟩

/-- The kernel's row equals the reference's row.  With z the real logits, the walk ends at (M, L), L = Σ_j exp(z_j − M) > 0,
    so the kernel's row is z_i − (M + log L); the reference's is (z_i − R) − log Σ_j exp(z_j − R) with R the real row
    maximum; and M + log L = log Σ_j exp(z_j) = R + log Σ_j exp(z_j − R) by the shift law. -/
theorem krow_eq_rrow (a p n : Mat) (ha : IsReal a) (hp : IsReal p) (hn : IsReal n) (i : Fin 8192) :
    krow a p n i = rrow a p n i := by
  -- the logits are reals z_j; Z continues them by 0 past column 16383, so that sums can run over ranges of naturals
  have hl : ∀ j, ∃ r : ℝ, logit a p n i j = (r : EReal) := logit_isReal a p n ha hp hn i
  choose z hz using hl
  obtain ⟨Z, hZ⟩ : ∃ Z : ℕ → ℝ, ∀ j : Fin 16384, logit a p n i j = ((Z j.val : ℝ) : EReal) :=
    ⟨fun j => if h : j < 16384 then z ⟨j, h⟩ else 0, fun j => by
      show _ = ((if h : j.val < 16384 then z ⟨j.val, h⟩ else 0 : ℝ) : EReal)
      rw [dif_pos j.isLt]; exact hz j⟩
  -- block k of p holds z_{512k+q}, block k of n holds z_{8192+512k+q}
  have hbp : ∀ (k : Fin 16) (q : Fin 512),
      blk a p i k q = ((Z (0 + 512 * k.val + q.val) : ℝ) : EReal) := by
    intro k q
    rw [zero_add]
    exact (logit_lo a p n i ⟨512 * k.val + q.val, by omega⟩).symm.trans (hZ ⟨512 * k.val + q.val, by omega⟩)
  have hbn : ∀ (k : Fin 16) (q : Fin 512),
      blk a n i k q = ((Z (0 + 512 * 16 + 512 * k.val + q.val) : ℝ) : EReal) := by
    intro k q
    rw [show 0 + 512 * 16 + 512 * k.val + q.val = 8192 + (512 * k.val + q.val) by ring]
    exact (logit_hi a p n i ⟨512 * k.val + q.val, by omega⟩).symm.trans
      (hZ ⟨8192 + (512 * k.val + q.val), by omega⟩)
  -- sixteen blocks of p from (−∞, 0), then sixteen blocks of n: all 16384 columns are seen
  have h1 : Seen Z (0 + 512 * 16) (scan a p i (⊥, 0) 16) :=
    scan_seen a p i Z 0 hbp (⊥, 0) (Or.inl ⟨rfl, rfl⟩) 16 le_rfl
  have h2 : Seen Z (0 + 512 * 16 + 512 * 16) (online a p n i) :=
    scan_seen a n i Z (0 + 512 * 16) hbn _ h1 16 le_rfl
  rcases h2 with ⟨h0, _⟩ | ⟨M, hM⟩
  · exact absurd h0 (by norm_num)
  rw [show 0 + 512 * 16 + 512 * 16 = 16384 by norm_num] at hM
  have hne : (Finset.range 16384).Nonempty := ⟨0, Finset.mem_range.mpr (by norm_num)⟩
  -- the kernel's row: L > 0, so log L is the real logarithm
  have hL : 0 < ∑ j ∈ Finset.range 16384, Real.exp (Z j - M) :=
    Finset.sum_pos (fun j _ => Real.exp_pos _) hne
  have hk : krow a p n i
      = ((Z i.val - (M + Real.log (∑ j ∈ Finset.range 16384, Real.exp (Z j - M))) : ℝ) : EReal) := by
    have hd : dot a p i i * invTemp = ((Z i.val : ℝ) : EReal) :=
      (logit_lo a p n i i).symm.trans (hZ ⟨i.val, by omega⟩)
    rw [krow, hM]
    dsimp only
    rw [hd, Ideal.log_coe, if_neg (not_le.mpr hL), ← EReal.coe_add, ← EReal.coe_sub]
  -- the reference's row: the row maximum is a real R, and again the sum is positive
  obtain ⟨R, hR⟩ := fold_max_real Finset.univ ⟨⟨0, by norm_num⟩, Finset.mem_univ _⟩ (logit a p n i)
    (logit_isReal a p n ha hp hn i)
  have hpos : 0 < ∑ j ∈ Finset.range 16384, Real.exp (Z j - R) :=
    Finset.sum_pos (fun j _ => Real.exp_pos _) hne
  have hr : rrow a p n i
      = ((Z i.val - R - Real.log (∑ j ∈ Finset.range 16384, Real.exp (Z j - R)) : ℝ) : EReal) := by
    have hsum : ∑ j : Fin 16384, Ideal.exp (logit a p n i j - (R : EReal))
        = ((∑ j ∈ Finset.range 16384, Real.exp (Z j - R) : ℝ) : EReal) := by
      rw [Finset.sum_range (fun j => Real.exp (Z j - R)), ← coe_sum]
      exact Finset.sum_congr rfl fun j _ => by rw [hZ j, ← EReal.coe_sub, Ideal.exp_coe]
    have hR' : rowMax a p n i = (R : EReal) := hR
    have hi : logit a p n i ⟨i.val, by omega⟩ = ((Z i.val : ℝ) : EReal) := hZ ⟨i.val, by omega⟩
    rw [rrow, hR', hsum, hi, Ideal.log_coe, if_neg (not_le.mpr hpos), ← EReal.coe_sub, ← EReal.coe_sub]
  -- both shifts give log Σ_j exp(z_j)
  have hshift : M + Real.log (∑ j ∈ Finset.range 16384, Real.exp (Z j - M))
      = R + Real.log (∑ j ∈ Finset.range 16384, Real.exp (Z j - R)) :=
    (lse_shift (Finset.range 16384) hne Z M).trans (lse_shift (Finset.range 16384) hne Z R).symm
  rw [hk, hr, sub_sub, hshift]

end Cert.Spec

end
-- ==== Proof.Finite.lean ====
/-
  From the precondition to "every input entry is a real number".

  The precondition is one word: for each of the three [8192, 256] inputs x it forms the array of truth values
  |x(r, d)| < +∞, reduces that array to a single truth value by conjunction over both axes (starting from "true"), and
  takes the conjunction of the three results.  It is assumed to be "true".

  Read backwards, a conjunction that is true has only true members, so for every input and every index (r, d) the
  truth value |x(r, d)| < +∞ is "true".  In the extended reals |x| is max(x, −x) and the f32 word 0x7F800000 denotes ⊤,
  so the element fact is max(x, −x) < ⊤.  An extended real is −∞, +∞ or a real number; for x = −∞ the maximum is
  max(−∞, +∞) = ⊤ and for x = +∞ it is ⊤ as well, and ⊤ < ⊤ is false — only a real number is left.

  Why it matters: the laws that join the two programs (cancelling a common factor, moving 1/T across a sum, splitting
  exp of a difference) hold for real numbers and fail at ±∞; they are applied to entries this file shows to be real.
-/
import proofs.«156210_j18399639896499_1_alg».proof.Defs
import proofs.«156210_j18399639896499_1_alg».proof.Proof.Gen.Pre_finite_inputs
import proofs.«156210_j18399639896499_1_alg».proof.Proof.Spec
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx Idealize.SL.Sem Cert.Pre_finite_inputs

/-- A rank-0 array has exactly one index (the empty tuple of coordinates): a reduction over every axis has one result. -/
instance : Subsingleton S_.Idx := ⟨fun a b => funext fun d => d.elim0⟩

/-- The f32 word 0x7F800000 (sign 0, exponent all ones, fraction 0) denotes +∞. -/
theorem inf_word : Ideal.ofBits .f32 0x7F800000#32 = (⊤ : EReal) := by
  simp [Ideal.ofBits, Ideal.ieee]

/-- If |x| = max(x, −x) is strictly below +∞ then x is a real number: at x = −∞ the maximum is −(−∞) = +∞, at x = +∞ it
    is +∞ itself, and +∞ < +∞ is false; the third kind of extended real, a real number, is its own witness. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

variable [Facts]

/-- One `all(|x| < +∞)`: if the conjunction over all 8192 · 256 indices of the truth values |x(r, d)| < +∞ (from any
    starting value) is true, every entry of x is real.  A true conjunction has a true member at every index; that member
    is max(x j, −(x j)) < ⊤, the bound being the word of +∞ broadcast to every index. -/
theorem isReal_of_all (x : FVec Ideal S8192x256 .f32) (init : IVec S_ 1)
    (h : Host.reduce IntOp.andi
          (cmpf .olt (Host.absf x)
            (broadcastInDim S8192x256 ![] Facts.bcast_S_S8192x256 (constant (F := Ideal) S_ .f32 0x7F800000#32)))
          init Facts.reducesTo_S8192x256_S_d0_1 Facts.h_S_ ix0 = 1#1) :
    Cert.Spec.IsReal x := by
  intro j
  -- the member of the conjunction at index j
  have e := Host.reduce_andi_all _ _ _ _ _ h j
  refine real_of_abs_lt_top (x j) ?_
  -- the bound ⊤ is the word of +∞, read at j through the broadcast of the one-element constant
  rw [← inf_word]
  exact e

/-- The whole precondition: all(|x0| < ∞) ∧ all(|x1| < ∞) ∧ all(|x2| < ∞) is true, so each of the three conjuncts is,
    and each gives the reality of its own array.  (The word associates as (· ∧ ·) ∧ ·.)
    Stated for any proof of the precondition's shape side conditions; they are propositions, so one proof is as good as another. -/
theorem isReal_of_fn (x0 x1 x2 : FVec Ideal S8192x256 .f32)
    (h : fn (F := Ideal) x0 x1 x2 = fun _ => 1#1) :
    Cert.Spec.IsReal x0 ∧ Cert.Spec.IsReal x1 ∧ Cert.Spec.IsReal x2 := by
  -- the precondition's single truth value, at the one index of a rank-0 array
  have h0 := congrFun h ix0
  dsimp only [fn] at h0
  obtain ⟨h01, h2⟩ := IntOp.andi_eq_one.1 h0
  obtain ⟨h0', h1⟩ := IntOp.andi_eq_one.1 h01
  exact ⟨isReal_of_all x0 _ h0', isReal_of_all x1 _ h1, isReal_of_all x2 _ h2⟩

omit [Facts] in
/-- The same for the memory a run starts from: on every device, the three argument arrays of the idealized kernel
    have only real entries, since the precondition holds of exactly those three arrays there. -/
theorem isReal_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Spec.IsReal (ι := S8192x256.Idx) (m ((c.tc : Thread Cert.KernelIdeal.nD Cert.KernelIdeal.τ).loc Cert.KernelIdeal.main_arg0))
    ∧ Cert.Spec.IsReal (ι := S8192x256.Idx) (m ((c.tc : Thread Cert.KernelIdeal.nD Cert.KernelIdeal.τ).loc Cert.KernelIdeal.main_arg1))
    ∧ Cert.Spec.IsReal (ι := S8192x256.Idx) (m ((c.tc : Thread Cert.KernelIdeal.nD Cert.KernelIdeal.τ).loc Cert.KernelIdeal.main_arg2)) :=
  @isReal_of_fn Cert.Pre_finite_inputs.Gen.facts _ _ _ (hpre c)

end Cert.Proof.Finite

end
-- ==== Proof.Bridge.lean ====
/-
  The two programs end with the same number.

  Both end with minus the mean of 8192 row values: the kernel's fourth region leaves row g at `krow A P N g`, the reference's
  gather at `rrow A P N g`, where A, P, N are the row-normalised arguments.  Finite inputs make A, P, N matrices of reals
  (a row of reals has a real norm, and max(norm, ε) is a positive real), and on matrices of reals the kernel's running
  log-sum-exp is the reference's two-pass one, so the rows agree and so do their means.
-/
import proofs.«156210_j18399639896499_1_alg».proof.Proof.KernelRun
import proofs.«156210_j18399639896499_1_alg».proof.Proof.NormValue
import proofs.«156210_j18399639896499_1_alg».proof.Proof.Reg3Value
import proofs.«156210_j18399639896499_1_alg».proof.Proof.RefValue
import proofs.«156210_j18399639896499_1_alg».proof.Proof.Softmax
import proofs.«156210_j18399639896499_1_alg».proof.Proof.Finite

noncomputable section

namespace Cert.Proof.Bridge

open Idealize.ShloMosaic Idealize.ShloMosaic.TcCoe Idealize.ShloMosaic.ValueIdx Idealize.SL.Sem

/-- The row values both programs average, as a function of the three argument matrices. -/
def rows (x0 x1 x2 : Cert.Spec.Mat) : (⟨1, ![8192]⟩ : Shape).Idx → EReal :=
  fun j => Cert.Spec.krow (Cert.Spec.nrm x0) (Cert.Spec.nrm x1) (Cert.Spec.nrm x2) (j 0)

/-- What the kernel's fourth region leaves in its output array, from the launch memory: the rows of the arguments. -/
theorem kernel_rows (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat3 (F := Ideal) (Cert.KernelIdeal.Gen.V3 m ρ) c).arrAt 3 Cert.KernelIdeal.cfg3.N
      = rows (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.Reg3.arr3, Cert.KernelIdeal.NormValue.entry3_0, Cert.KernelIdeal.NormValue.entry3_1,
    Cert.KernelIdeal.NormValue.entry3_2]
  rfl

/-- What the reference's gather holds, on real arguments: the same rows. -/
theorem reference_rows (x0 x1 x2 : Cert.Spec.Mat) (h0 : Cert.Spec.IsReal x0) (h1 : Cert.Spec.IsReal x1) (h2 : Cert.Spec.IsReal x2) :
    Cert.ReferenceIdeal.ReadP.val_main_v46 (F := Ideal) x0 x1 x2 = rows x0 x1 x2 :=
  funext fun i => (Cert.ReferenceIdeal.RefValue.row_at x0 x1 x2 i).trans
    (Cert.Spec.krow_eq_rrow _ _ _ (Cert.Spec.nrm_isReal x0 h0) (Cert.Spec.nrm_isReal x1 h1) (Cert.Spec.nrm_isReal x2 h2) (i 0)).symm

/-- The reference's result is the kernel's closing host operations applied to its gather. -/
theorem reference_result (x0 x1 x2 : Cert.Spec.Mat) :
    Cert.ReferenceIdeal.ReadP.val_main_v49 (F := Ideal) x0 x1 x2
      = Cert.KernelIdeal.Run.lossOf (F := Ideal) (Cert.ReferenceIdeal.ReadP.val_main_v46 (F := Ideal) x0 x1 x2) := rfl

end Cert.Proof.Bridge

end
-- ==== Proof.lean ====
/-
  The certificate: a contrastive loss computed by four TensorCore regions equals its jnp reference on the extended reals.

  The inputs are three finite matrices anc, pos, neg of 8192 rows and 256 columns.  Both programs normalise every row,
  x(r, ·) / max(‖x(r, ·)‖₂, ε), giving A, P, N, and return minus the mean over the rows i of
      ⟨A_i, P_i⟩ / T − log Σ_j exp(z_ij),   z_i the 16384 logits ⟨A_i, P_j⟩ / T, ⟨A_i, N_j⟩ / T.
  The reference divides by the f32 word T of 0.05 and takes log-softmax the two-pass way (subtract the row maximum, sum the
  exponentials, take the logarithm).  The kernel multiplies by its folded scale, which the certificate's table names 1/T
  exactly, and keeps per row only a running maximum and a running rescaled sum over 32 blocks of 512 columns.

  The frames: the two kernel programs have generated frames; the reference's frame is its run with the result dropped.
  The idealization rewrote three constants, all the same scale, each restated by its rule.  The value claim: the kernel's run
  ends with minus the mean of the rows its fourth region leaves (Proof/KernelRun.lean), those rows are `krow` of the
  normalised arguments (Proof/NormValue.lean for the three normalising regions, Proof/Reg3*.lean for the fourth), the
  reference's run ends with minus the mean of `rrow` of the same matrices (Proof/Ref*.lean), and on finite inputs the two
  row functions agree (Proof/Softmax.lean, Proof/Finite.lean).
-/
import proofs.«156210_j18399639896499_1_alg».proof.Defs
import proofs.«156210_j18399639896499_1_alg».proof.Proof.Gen.Kernel
import proofs.«156210_j18399639896499_1_alg».proof.Proof.Gen.Kernel.Skeleton
import proofs.«156210_j18399639896499_1_alg».proof.Proof.Gen.Kernel.Loops
import proofs.«156210_j18399639896499_1_alg».proof.Proof.Gen.Kernel.Launch
import proofs.«156210_j18399639896499_1_alg».proof.Proof.Gen.Kernel.Points
import proofs.«156210_j18399639896499_1_alg».proof.Proof.Gen.Kernel.Frame
import proofs.«156210_j18399639896499_1_alg».proof.Proof.Gen.KernelIdeal
import proofs.«156210_j18399639896499_1_alg».proof.Proof.Gen.KernelIdeal.Skeleton
import proofs.«156210_j18399639896499_1_alg».proof.Proof.Gen.KernelIdeal.Loops
import proofs.«156210_j18399639896499_1_alg».proof.Proof.Gen.KernelIdeal.Launch
import proofs.«156210_j18399639896499_1_alg».proof.Proof.Gen.KernelIdeal.Points
import proofs.«156210_j18399639896499_1_alg».proof.Proof.Gen.KernelIdeal.Frame
import proofs.«156210_j18399639896499_1_alg».proof.Proof.Gen.ReferenceIdeal
import proofs.«156210_j18399639896499_1_alg».proof.Proof.Gen.Pre_finite_inputs
import proofs.«156210_j18399639896499_1_alg».proof.Proof.RefRunP
import proofs.«156210_j18399639896499_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The three rewritten constants are one: the kernel's scale 20.0, which the table names 1/T = 268435456 / 13421773. -/
theorem preserves : Cert.preserves_Kernel_KernelIdeal :=
  ⟨IdealRules.named_const.statement Cert.KernelIdeal.κ "inv_temp" .f32 0x41A00000#32 ((268435456 / 13421773 : ℝ) : EReal) rfl,
   IdealRules.named_const.statement Cert.KernelIdeal.κ "inv_temp" .f32 0x41A00000#32 ((268435456 / 13421773 : ℝ) : EReal) rfl,
   IdealRules.named_const.statement Cert.KernelIdeal.κ "inv_temp" .f32 0x41A00000#32 ((268435456 / 13421773 : ℝ) : EReal) rfl⟩

/-- The reference run's result term is the stage the read-at-an-index lemmas speak of. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v49 (F := Ideal) m c
      = Cert.ReferenceIdeal.ReadP.val_main_v49 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) := by
  unfold Cert.ReferenceIdeal.ValueP.res_main_v49; rfl

/-- On finite inputs both programs end with minus the mean of the same 8192 row values. -/
theorem algebraic : Cert.algebraic_KernelIdeal_ReferenceIdeal := by
  intro m ρ m' ρ' hpre hagree
  refine ⟨fun c => Cert.KernelIdeal.Run.lossOf (F := Ideal) (Bridge.rows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (congrArg (Cert.KernelIdeal.Run.lossOf (F := Ideal)) (Bridge.kernel_rows m ρ c)), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2⟩ := Cert.Proof.Finite.isReal_of_pre m hpre c
    rw [ref_result, (hagree c).1, (hagree c).2.1, (hagree c).2.2, Bridge.reference_result,
      Bridge.reference_rows _ _ _ h0 h1 h2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
